-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S40000x32 : S_.BroadcastsInDim S40000x32 (![] : Fin 0 → Fin S40000x32.rank)
  reducesTo_S40000x32_S_d0_1 : S40000x32.ReducesTo [0, 1] S_
  bcast_S_S400000x32 : S_.BroadcastsInDim S400000x32 (![] : Fin 0 → Fin S400000x32.rank)
  reducesTo_S400000x32_S_d0_1 : S400000x32.ReducesTo [0, 1] S_
  bcast_S_S160x320 : S_.BroadcastsInDim S160x320 (![] : Fin 0 → Fin S160x320.rank)
  reducesTo_S160x320_S_d0_1 : S160x320.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S1x160 : S_.BroadcastsInDim S1x160 (![] : Fin 0 → Fin S1x160.rank)
  reducesTo_S1x160_S_d0_1 : S1x160.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x160 .f32) (main_arg13 : FVec F S1 .f32) (main_v48 : IVec S_ 1) (main_v49 : FVec F S160 .f32) (main_v50 : FVec F S160 .f32) : IVec S_ 1 :=
  let main_v51 : IVec S160 1 := cmpf .olt main_v49 main_v50
  let main_c_19 : IVec S_ 1 := constantI S_ 1 1#1
  let main_v52 : IVec S_ 1 := (fun x v => Host.reduce IntOp.andi x v reducesTo_S160_S_d0 h_S_) main_v51 main_c_19
  let main_v53 : IVec S_ 1 := andi main_v48 main_v52
  let main_v54 : FVec F S1x160 .f32 := Host.absf main_arg12
  let main_cst_20 : FVec F S_ .f32 := constant S_ .f32 0x7F800000#32
  let main_v55 : FVec F S1x160 .f32 := broadcastInDim S1x160 ![] bcast_S_S1x160 main_cst_20
  let main_v56 : IVec S1x160 1 := cmpf .olt main_v54 main_v55
  let main_c_21 : IVec S_ 1 := constantI S_ 1 1#1
  let main_v57 : IVec S_ 1 := (fun x v => Host.reduce IntOp.andi x v reducesTo_S1x160_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S160 .f32) (main_arg9 : FVec F S160 .f32) (main_arg10 : FVec F S160 .f32) (main_arg11 : FVec F S160 .f32) (main_arg12 : FVec F S1x160 .f32) (main_arg13 : FVec F S1 .f32) (main_v33 : IVec S_ 1) : IVec S_ 1 :=
  let main_v34 : FVec F S160 .f32 := Host.absf main_arg8
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  let main_v39 : FVec F S160 .f32 := Host.absf main_arg9
  let main_cst_14 : FVec F S_ .f32 := constant S_ .f32 0x7F800000#32
  let main_v40 : FVec F S160 .f32 := broadcastInDim S160 ![] bcast_S_S160 main_cst_14
  let main_v41 : IVec S160 1 := cmpf .olt main_v39 main_v40
  let main_c_15 : IVec S_ 1 := constantI S_ 1 1#1
  let main_v42 : IVec S_ 1 := (fun x v => Host.reduce IntOp.andi x v reducesTo_S160_S_d0 h_S_) main_v41 main_c_15
  let main_v43 : IVec S_ 1 := andi main_v38 main_v42
  let main_v44 : FVec F S160 .f32 := Host.absf main_arg10
  let main_cst_16 : FVec F S_ .f32 := constant S_ .f32 0x7F800000#32
  let main_v45 : FVec F S160 .f32 := broadcastInDim S160 ![] bcast_S_S160 main_cst_16
  let main_v46 : IVec S160 1 := cmpf .olt main_v44 main_v45
  let main_c_17 : IVec S_ 1 := constantI S_ 1 1#1
  let main_v47 : IVec S_ 1 := (fun x v => Host.reduce IntOp.andi x v reducesTo_S160_S_d0 h_S_) main_v46 main_c_17
  let main_v48 : IVec S_ 1 := andi main_v43 main_v47
  let main_v49 : FVec F S160 .f32 := Host.absf main_arg11
  let main_cst_18 : FVec F S_ .f32 := constant S_ .f32 0x7F800000#32
  let main_v50 : FVec F S160 .f32 := broadcastInDim S160 ![] bcast_S_S160 main_cst_18
  fn_part3 (F := F) main_arg12 main_arg13 main_v48 main_v49 main_v50

def fn_part1 {F : FTy → Type} [FloatOps F] (main_arg5 : FVec F S160x320 .f32) (main_arg6 : FVec F S160x160 .f32) (main_arg7 : FVec F S160x320 .f32) (main_arg8 : FVec F S160 .f32) (main_arg9 : FVec F S160 .f32) (main_arg10 : FVec F S160 .f32) (main_arg11 : FVec F S160 .f32) (main_arg12 : FVec F S1x160 .f32) (main_arg13 : FVec F S1 .f32) (main_v13 : IVec S_ 1) (main_v16 : IVec S400000x32 1) : IVec S_ 1 :=
  let main_c_5 : IVec S_ 1 := constantI S_ 1 1#1
  let main_v17 : IVec S_ 1 := (fun x v => Host.reduce IntOp.andi x v reducesTo_S400000x32_S_d0_1 h_S_) main_v16 main_c_5
  let main_v18 : IVec S_ 1 := andi main_v13 main_v17
  let main_v19 : FVec F S160x320 .f32 := Host.absf main_arg5
  let main_cst_6 : FVec F S_ .f32 := constant S_ .f32 0x7F800000#32
  let main_v20 : FVec F S160x320 .f32 := broadcastInDim S160x320 ![] bcast_S_S160x320 main_cst_6
  let main_v21 : IVec S160x320 1 := cmpf .olt main_v19 main_v20
  let main_c_7 : IVec S_ 1 := constantI S_ 1 1#1
  let main_v22 : IVec S_ 1 := (fun x v => Host.reduce IntOp.andi x v reducesTo_S160x320_S_d0_1 h_S_) main_v21 main_c_7
  let main_v23 : IVec S_ 1 := andi main_v18 main_v22
  let main_v24 : FVec F S160x160 .f32 := Host.absf main_arg6
  let main_cst_8 : FVec F S_ .f32 := constant S_ .f32 0x7F800000#32
  let main_v25 : FVec F S160x160 .f32 := broadcastInDim S160x160 ![] bcast_S_S160x160 main_cst_8
  let main_v26 : IVec S160x160 1 := cmpf .olt main_v24 main_v25
  let main_c_9 : IVec S_ 1 := constantI S_ 1 1#1
  let main_v27 : IVec S_ 1 := (fun x v => Host.reduce IntOp.andi x v reducesTo_S160x160_S_d0_1 h_S_) main_v26 main_c_9
  let main_v28 : IVec S_ 1 := andi main_v23 main_v27
  let main_v29 : FVec F S160x320 .f32 := Host.absf main_arg7
  let main_cst_10 : FVec F S_ .f32 := constant S_ .f32 0x7F800000#32
  let main_v30 : FVec F S160x320 .f32 := broadcastInDim S160x320 ![] bcast_S_S160x320 main_cst_10
  let main_v31 : IVec S160x320 1 := cmpf .olt main_v29 main_v30
  let main_c_11 : IVec S_ 1 := constantI S_ 1 1#1
  let main_v32 : IVec S_ 1 := (fun x v => Host.reduce IntOp.andi x v reducesTo_S160x320_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S40000x128 .f32) (main_arg1 : FVec F S400000x128 .f32) (main_arg2 : FVec F S40000x32 .f32) (main_arg3 : FVec F S400000x32 .f32) (main_arg4 : IVec S400000 32) (main_arg5 : FVec F S160x320 .f32) (main_arg6 : FVec F S160x160 .f32) (main_arg7 : FVec F S160x320 .f32) (main_arg8 : FVec F S160 .f32) (main_arg9 : FVec F S160 .f32) (main_arg10 : FVec F S160 .f32) (main_arg11 : FVec F S160 .f32) (main_arg12 : FVec F S1x160 .f32) (main_arg13 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S40000x32 .f32 := Host.absf main_arg2
  let main_cst_2 : FVec F S_ .f32 := constant S_ .f32 0x7F800000#32
  let main_v10 : FVec F S40000x32 .f32 := broadcastInDim S40000x32 ![] bcast_S_S40000x32 main_cst_2
  let main_v11 : IVec S40000x32 1 := cmpf .olt main_v9 main_v10
  let main_c_3 : IVec S_ 1 := constantI S_ 1 1#1
  let main_v12 : IVec S_ 1 := (fun x v => Host.reduce IntOp.andi x v reducesTo_S40000x32_S_d0_1 h_S_) main_v11 main_c_3
  let main_v13 : IVec S_ 1 := andi main_v8 main_v12
  let main_v14 : FVec F S400000x32 .f32 := Host.absf main_arg3
  let main_cst_4 : FVec F S_ .f32 := constant S_ .f32 0x7F800000#32
  let main_v15 : FVec F S400000x32 .f32 := broadcastInDim S400000x32 ![] bcast_S_S400000x32 main_cst_4
  let main_v16 : IVec S400000x32 1 := cmpf .olt main_v14 main_v15
  fn_part1 (F := F) main_arg5 main_arg6 main_arg7 main_arg8 main_arg9 main_arg10 main_arg11 main_arg12 main_arg13 main_v13 main_v16
-- ==== Kernel.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩
abbrev S400000x1 : Shape := ⟨2, ![400000, 1]⟩
abbrev S320x160 : Shape := ⟨2, ![320, 160]⟩
abbrev S1x1 : Shape := ⟨2, ![1, 1]⟩
abbrev S4000x128 : Shape := ⟨2, ![4000, 128]⟩
abbrev S4000x32 : Shape := ⟨2, ![4000, 32]⟩
abbrev S4000x1 : Shape := ⟨2, ![4000, 1]⟩
abbrev S128x160 : Shape := ⟨2, ![128, 160]⟩
abbrev S4000x160 : Shape := ⟨2, ![4000, 160]⟩
abbrev S32x160 : Shape := ⟨2, ![32, 160]⟩
abbrev S4000 : Shape := ⟨1, ![4000]⟩

abbrev nBuf : Space → Nat
  | .hbm => 46
  | .vmem => 19
  | .smem => 0
  | _ => 0

abbrev bufTy : (tb : Table) → Fin (tcTables nBuf tb) → BufTy
  | .hbm, ⟨0, _⟩ => ⟨S40000x128, .f32⟩
  | .hbm, ⟨1, _⟩ => ⟨S400000x128, .f32⟩
  | .hbm, ⟨2, _⟩ => ⟨S40000x32, .f32⟩
  | .hbm, ⟨3, _⟩ => ⟨S400000x32, .f32⟩
  | .hbm, ⟨4, _⟩ => ⟨S400000, .i32⟩
  | .hbm, ⟨5, _⟩ => ⟨S160x320, .f32⟩
  | .hbm, ⟨6, _⟩ => ⟨S160x160, .f32⟩
  | .hbm, ⟨7, _⟩ => ⟨S160x320, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S160, .f32⟩
  | .hbm, ⟨12, _⟩ => ⟨S1x160, .f32⟩
  | .hbm, ⟨13, _⟩ => ⟨S1, .f32⟩
  | .hbm, ⟨14, _⟩ => ⟨S40000x128, .bf16⟩
  | .hbm, ⟨15, _⟩ => ⟨S40000x32, .bf16⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x128, .bf16⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x32, .bf16⟩
  | .hbm, ⟨34, _⟩ => ⟨S320x160, .f32⟩
  | .hbm, ⟨35, _⟩ => ⟨S320x160, .bf16⟩
  | .hbm, ⟨36, _⟩ => ⟨S160x160, .f32⟩
  | .hbm, ⟨37, _⟩ => ⟨S160x160, .bf16⟩
  | .hbm, ⟨38, _⟩ => ⟨S320x160, .f32⟩
  | .hbm, ⟨39, _⟩ => ⟨S320x160, .bf16⟩
  | .hbm, ⟨40, _⟩ => ⟨S1x160, .f32⟩
  | .hbm, ⟨41, _⟩ => ⟨S1x160, .f32⟩
  | .hbm, ⟨42, _⟩ => ⟨S1x160, .f32⟩
  | .hbm, ⟨43, _⟩ => ⟨S1x160, .f32⟩
  | .hbm, ⟨44, _⟩ => ⟨S1x1, .f32⟩
  | .hbm, ⟨45, _⟩ => ⟨S400000x1, .f32⟩
  | .local _ .vmem, ⟨0, _⟩ => ⟨S4000x128, .f32⟩
  | .local _ .vmem, ⟨1, _⟩ => ⟨S4000x128, .f32⟩
  | .local _ .vmem, ⟨2, _⟩ => ⟨S4000x32, .f32⟩
  | .local _ .vmem, ⟨3, _⟩ => ⟨S4000x32, .f32⟩
  | .local _ .vmem, ⟨4, _⟩ => ⟨S4000x128, .bf16⟩
  | .local _ .vmem, ⟨5, _⟩ => ⟨S4000x128, .bf16⟩
  | .local _ .vmem, ⟨6, _⟩ => ⟨S4000x32, .bf16⟩
  | .local _ .vmem, ⟨7, _⟩ => ⟨S4000x32, .bf16⟩
  | .local _ .vmem, ⟨8, _⟩ => ⟨S320x160, .bf16⟩
  | .local _ .vmem, ⟨9, _⟩ => ⟨S160x160, .bf16⟩
  | .local _ .vmem, ⟨10, _⟩ => ⟨S320x160, .bf16⟩
  | .local _ .vmem, ⟨11, _⟩ => ⟨S1x160, .f32⟩
  | .local _ .vmem, ⟨12, _⟩ => ⟨S1x160, .f32⟩
  | .local _ .vmem, ⟨13, _⟩ => ⟨S1x160, .f32⟩
  | .local _ .vmem, ⟨14, _⟩ => ⟨S1x160, .f32⟩
  | .local _ .vmem, ⟨15, _⟩ => ⟨S1x160, .f32⟩
  | .local _ .vmem, ⟨16, _⟩ => ⟨S1x1, .f32⟩
  | .local _ .vmem, ⟨17, _⟩ => ⟨S4000x1, .f32⟩
  | .local _ .vmem, ⟨18, _⟩ => ⟨S4000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S320x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x160 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  transposes_S160x320_S320x160_1_0 : S160x320.Transposes [1, 0] S320x160
  transposes_S160x160_S160x160_1_0 : S160x160.Transposes [1, 0] S160x160
  shapeCasts_S160_S1x160 : S160.ShapeCasts S1x160
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  inb_S4000x32_S4000x32_0_0 : ∀ a, (![0, 0] : Fin 2 → Nat) a + S4000x32.size a ≤ S4000x32.size a
  h_S4000x32 : 0 < S4000x32.numel
  shapeCasts_S4000x128_S4000x128 : S4000x128.ShapeCasts S4000x128
  shapeCasts_S4000x32_S4000x32 : S4000x32.ShapeCasts S4000x32
  inb_S320x160_S128x160_0_0 : ∀ a, (![0, 0] : Fin 2 → Nat) a + S128x160.size a ≤ S320x160.size a
  h_S128x160 : 0 < S128x160.numel
  shapeCasts_S128x160_S128x160 : S128x160.ShapeCasts S128x160
  inb_S320x160_S32x160_128_0 : ∀ a, (![128, 0] : Fin 2 → Nat) a + S32x160.size a ≤ S320x160.size a
  h_S32x160 : 0 < S32x160.numel
  shapeCasts_S32x160_S32x160 : S32x160.ShapeCasts S32x160
  inb_S320x160_S128x160_160_0 : ∀ a, (![160, 0] : Fin 2 → Nat) a + S128x160.size a ≤ S320x160.size a
  inb_S320x160_S32x160_288_0 : ∀ a, (![288, 0] : Fin 2 → Nat) a + S32x160.size a ≤ S320x160.size a
  inb_S1x160_S1x160_0_0 : ∀ a, (![0, 0] : Fin 2 → Nat) a + S1x160.size a ≤ S1x160.size a
  h_S1x160 : 0 < S1x160.numel
  shapeCasts_S1x160_S1x160 : S1x160.ShapeCasts S1x160
  reduces_S4000x160_S4000 : S4000x160.Reduces [1] S4000
  shapeCasts_S4000_S4000x1 : S4000.ShapeCasts S4000x1
  broadcasts_S4000x1_S4000x160 : S4000x1.Broadcasts S4000x160
  broadcasts_S1x160_S4000x160 : S1x160.Broadcasts S4000x160
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S40000x128_S400000x1_S400000x128_1_0_n_n_0_1_1128_wf : GatherDims.WF S40000x128 S400000x1 S400000x128 [1] [0] [] [0] [] 1 ![1, 128]
  gather_S40000x32_S400000x1_S400000x32_1_0_n_n_0_1_132_wf : GatherDims.WF S40000x32 S400000x1 S400000x32 [1] [0] [] [0] [] 1 ![1, 32]
  dot_S4000x128_S128x160_S4000x160_1_0_0_1_n_n_wf : DotDims.WF S4000x128 S128x160 S4000x160 [1] [0] [0] [1] [] []
  dot_S4000x32_S32x160_S4000x160_1_0_0_1_n_n_wf : DotDims.WF S4000x32 S32x160 S4000x160 [1] [0] [0] [1] [] []
  dot_S4000x160_S160x160_S4000x160_1_0_0_1_n_n_wf : DotDims.WF S4000x160 S160x160 S4000x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S400000x32.size a
  hwx0_1 : ∀ i : grid0.Coords, EltTy.bits .f32 = 32 ∨ (Rect.block (s := S400000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .bf16 = 32 ∨ (Rect.block (s := S400000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S400000x32.size a
  hwx0_3 : ∀ i : grid0.Coords, EltTy.bits .bf16 = 32 ∨ (Rect.block (s := S400000x32) S4000x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x160.size a ≤ S320x160.size a
  hwx0_4 : ∀ i : grid0.Coords, EltTy.bits .bf16 = 32 ∨ (Rect.block (s := S320x160) S320x160.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x160.size a ≤ S160x160.size a
  hwx0_5 : ∀ i : grid0.Coords, EltTy.bits .bf16 = 32 ∨ (Rect.block (s := S160x160) S160x160.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S320x160.size a ≤ S320x160.size a
  hwx0_6 : ∀ i : grid0.Coords, EltTy.bits .bf16 = 32 ∨ (Rect.block (s := S320x160) S320x160.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x160.size a ≤ S1x160.size a
  hwx0_7 : ∀ i : grid0.Coords, EltTy.bits .f32 = 32 ∨ (Rect.block (s := S1x160) S1x160.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x160.size a ≤ S1x160.size a
  hwx0_8 : ∀ i : grid0.Coords, EltTy.bits .f32 = 32 ∨ (Rect.block (s := S1x160) S1x160.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x160.size a ≤ S1x160.size a
  hwx0_9 : ∀ i : grid0.Coords, EltTy.bits .f32 = 32 ∨ (Rect.block (s := S1x160) S1x160.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x160.size a ≤ S1x160.size a
  hwx0_10 : ∀ i : grid0.Coords, EltTy.bits .f32 = 32 ∨ (Rect.block (s := S1x160) S1x160.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x160.size a ≤ S1x160.size a
  hwx0_11 : ∀ i : grid0.Coords, EltTy.bits .f32 = 32 ∨ (Rect.block (s := S1x160) S1x160.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x1.size a ≤ S400000x1.size a
  hwx0_13 : ∀ i : grid0.Coords, EltTy.bits .f32 = 32 ∨ (Rect.block (s := S400000x1) S4000x1.size (cc0_transform_13 i) (hinb0_13 i)).WholeWords (EltTy.packing .f32)

variable [Facts₀]

def gather_S40000x128_S400000x1_S400000x128_1_0_n_n_0_1_1128 : GatherDims S40000x128 S400000x1 S400000x128 where
  offsetDims := [1]
  collapsedSliceDims := [0]
  operandBatchingDims := []
  startIndicesBatchingDims := []
  startIndexMap := [0]
  indexVectorDim := 1
  sliceSizes := ![1, 128]
  wf := gather_S40000x128_S400000x1_S400000x128_1_0_n_n_0_1_1128_wf
def gather_S40000x32_S400000x1_S400000x32_1_0_n_n_0_1_132 : GatherDims S40000x32 S400000x1 S400000x32 where
  offsetDims := [1]
  collapsedSliceDims := [0]
  operandBatchingDims := []
  startIndicesBatchingDims := []
  startIndexMap := [0]
  indexVectorDim := 1
  sliceSizes := ![1, 32]
  wf := gather_S40000x32_S400000x1_S400000x32_1_0_n_n_0_1_132_wf
def dot_S4000x128_S128x160_S4000x160_1_0_0_1_n_n : DotDims S4000x128 S128x160 S4000x160 where
  lhsContracting := [1]
  rhsContracting := [0]
  lhsNonContracting := [0]
  rhsNonContracting := [1]
  lhsBatch := []
  rhsBatch := []
  wf := dot_S4000x128_S128x160_S4000x160_1_0_0_1_n_n_wf
def dot_S4000x32_S32x160_S4000x160_1_0_0_1_n_n : DotDims S4000x32 S32x160 S4000x160 where
  lhsContracting := [1]
  rhsContracting := [0]
  lhsNonContracting := [0]
  rhsNonContracting := [1]
  lhsBatch := []
  rhsBatch := []
  wf := dot_S4000x32_S32x160_S4000x160_1_0_0_1_n_n_wf
def dot_S4000x160_S160x160_S4000x160_1_0_0_1_n_n : DotDims S4000x160 S160x160 S4000x160 where
  lhsContracting := [1]
  rhsContracting := [0]
  lhsNonContracting := [0]
  rhsNonContracting := [1]
  lhsBatch := []
  rhsBatch := []
  wf := dot_S4000x160_S160x160_S4000x160_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S320x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S160x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S320x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x160.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x160.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x160.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x160.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x160.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S4000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S40000x128 : Shape := ⟨2, ![40000, 128]⟩
abbrev S400000x128 : Shape := ⟨2, ![400000, 128]⟩
abbrev S40000x32 : Shape := ⟨2, ![40000, 32]⟩
abbrev S400000x32 : Shape := ⟨2, ![400000, 32]⟩
abbrev S400000 : Shape := ⟨1, ![400000]⟩
abbrev S160x320 : Shape := ⟨2, ![160, 320]⟩
abbrev S160x160 : Shape := ⟨2, ![160, 160]⟩
abbrev S160 : Shape := ⟨1, ![160]⟩
abbrev S1x160 : Shape := ⟨2, ![1, 160]⟩
abbrev S1 : Shape := ⟨1, ![1]⟩
abbrev S_ : Shape := ⟨0, ![]⟩
abbrev S400000x1 : Shape := ⟨2, ![400000, 1]⟩
abbrev S400000x320 : Shape := ⟨2, ![400000, 320]⟩
abbrev S400000x160 : Shape := ⟨2, ![400000, 160]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S400000x128, .f32⟩
  | .hbm, ⟨2, _⟩ => ⟨S40000x32, .f32⟩
  | .hbm, ⟨3, _⟩ => ⟨S400000x32, .f32⟩
  | .hbm, ⟨4, _⟩ => ⟨S400000, .i32⟩
  | .hbm, ⟨5, _⟩ => ⟨S160x320, .f32⟩
  | .hbm, ⟨6, _⟩ => ⟨S160x160, .f32⟩
  | .hbm, ⟨7, _⟩ => ⟨S160x320, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S160, .f32⟩
  | .hbm, ⟨12, _⟩ => ⟨S1x160, .f32⟩
  | .hbm, ⟨13, _⟩ => ⟨S1, .f32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x32, .f32⟩
  | .hbm, ⟨32, _⟩ => ⟨S400000x320, .f32⟩
  | .hbm, ⟨33, _⟩ => ⟨S400000x160, .f32⟩
  | .hbm, ⟨34, _⟩ => ⟨S_, .f32⟩
  | .hbm, ⟨35, _⟩ => ⟨S400000, .f32⟩
  | .hbm, ⟨36, _⟩ => ⟨S400000x1, .f32⟩
  | .hbm, ⟨37, _⟩ => ⟨S_, .f32⟩
  | .hbm, ⟨38, _⟩ => ⟨S400000x1, .f32⟩
  | .hbm, ⟨39, _⟩ => ⟨S400000x1, .f32⟩
  | .hbm, ⟨40, _⟩ => ⟨S400000x160, .f32⟩
  | .hbm, ⟨41, _⟩ => ⟨S400000x160, .f32⟩
  | .hbm, ⟨42, _⟩ => ⟨S400000x160, .f32⟩
  | .hbm, ⟨43, _⟩ => ⟨S_, .f32⟩
  | .hbm, ⟨44, _⟩ => ⟨S400000, .f32⟩
  | .hbm, ⟨45, _⟩ => ⟨S400000x1, .f32⟩
  | .hbm, ⟨46, _⟩ => ⟨S_, .f32⟩
  | .hbm, ⟨47, _⟩ => ⟨S400000x1, .f32⟩
  | .hbm, ⟨48, _⟩ => ⟨S400000x1, .f32⟩
  | .hbm, ⟨49, _⟩ => ⟨S400000x160, .f32⟩
  | .hbm, ⟨50, _⟩ => ⟨S400000x160, .f32⟩
  | .hbm, ⟨51, _⟩ => ⟨S_, .f32⟩
  | .hbm, ⟨52, _⟩ => ⟨S400000x1, .f32⟩
  | .hbm, ⟨53, _⟩ => ⟨S400000x1, .f32⟩
  | .hbm, ⟨54, _⟩ => ⟨S400000x1, .f32⟩
  | .hbm, ⟨55, _⟩ => ⟨S400000x160, .f32⟩
  | .hbm, ⟨56, _⟩ => ⟨S400000x160, .f32⟩
  | .hbm, ⟨57, _⟩ => ⟨S1x160, .f32⟩
  | .hbm, ⟨58, _⟩ => ⟨S400000x160, .f32⟩
  | .hbm, ⟨59, _⟩ => ⟨S400000x160, .f32⟩
  | .hbm, ⟨60, _⟩ => ⟨S1x160, .f32⟩
  | .hbm, ⟨61, _⟩ => ⟨S400000x160, .f32⟩
  | .hbm, ⟨62, _⟩ => ⟨S400000x160, .f32⟩
  | .hbm, ⟨63, _⟩ => ⟨S_, .f32⟩
  | .hbm, ⟨64, _⟩ => ⟨S400000x160, .f32⟩
  | .hbm, ⟨65, _⟩ => ⟨S400000x160, .f32⟩
  | .hbm, ⟨66, _⟩ => ⟨S400000x160, .f32⟩
  | .hbm, ⟨67, _⟩ => ⟨S_, .f32⟩
  | .hbm, ⟨68, _⟩ => ⟨S400000, .f32⟩
  | .hbm, ⟨69, _⟩ => ⟨S400000x1, .f32⟩
  | .hbm, ⟨70, _⟩ => ⟨S_, .f32⟩
  | .hbm, ⟨71, _⟩ => ⟨S400000x1, .f32⟩
  | .hbm, ⟨72, _⟩ => ⟨S400000x1, .f32⟩
  | .hbm, ⟨73, _⟩ => ⟨S400000x160, .f32⟩
  | .hbm, ⟨74, _⟩ => ⟨S400000x160, .f32⟩
  | .hbm, ⟨75, _⟩ => ⟨S400000x160, .f32⟩
  | .hbm, ⟨76, _⟩ => ⟨S_, .f32⟩
  | .hbm, ⟨77, _⟩ => ⟨S400000, .f32⟩
  | .hbm, ⟨78, _⟩ => ⟨S400000x1, .f32⟩
  | .hbm, ⟨79, _⟩ => ⟨S_, .f32⟩
  | .hbm, ⟨80, _⟩ => ⟨S400000x1, .f32⟩
  | .hbm, ⟨81, _⟩ => ⟨S400000x1, .f32⟩
  | .hbm, ⟨82, _⟩ => ⟨S400000x160, .f32⟩
  | .hbm, ⟨83, _⟩ => ⟨S400000x160, .f32⟩
  | .hbm, ⟨84, _⟩ => ⟨S_, .f32⟩
  | .hbm, ⟨85, _⟩ => ⟨S400000x1, .f32⟩
  | .hbm, ⟨86, _⟩ => ⟨S400000x1, .f32⟩
  | .hbm, ⟨87, _⟩ => ⟨S400000x1, .f32⟩
  | .hbm, ⟨88, _⟩ => ⟨S400000x160, .f32⟩
  | .hbm, ⟨89, _⟩ => ⟨S400000x160, .f32⟩
  | .hbm, ⟨90, _⟩ => ⟨S1x160, .f32⟩
  | .hbm, ⟨91, _⟩ => ⟨S400000x160, .f32⟩
  | .hbm, ⟨92, _⟩ => ⟨S400000x160, .f32⟩
  | .hbm, ⟨93, _⟩ => ⟨S1x160, .f32⟩
  | .hbm, ⟨94, _⟩ => ⟨S400000x160, .f32⟩
  | .hbm, ⟨95, _⟩ => ⟨S400000x160, .f32⟩
  | .hbm, ⟨96, _⟩ => ⟨S400000x160, .f32⟩
  | .hbm, ⟨97, _⟩ => ⟨S400000x160, .f32⟩
  | .hbm, ⟨98, _⟩ => ⟨S_, .f32⟩
  | .hbm, ⟨99, _⟩ => ⟨S400000x160, .f32⟩
  | .hbm, ⟨100, _⟩ => ⟨S400000x160, .f32⟩
  | .hbm, ⟨101, _⟩ => ⟨S400000x1, .f32⟩
  | .hbm, ⟨102, _⟩ => ⟨S1x1, .f32⟩
  | .hbm, ⟨103, _⟩ => ⟨S400000x1, .f32⟩
  | .hbm, ⟨104, _⟩ => ⟨S400000x1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call1_cst : Ref sig .tc := ⟨.hbm, 98, rfl⟩
abbrev main_call1_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x32_S400000x128_S400000x32_S400000x320_d1 : Shape.Concatenates [S400000x128, S400000x32, S400000x128, S400000x32] S400000x320 1
  reducesTo_S400000x160_S400000_d1 : S400000x160.ReducesTo [1] S400000
  h_S_ : 0 < S_.numel
  bcast_S_S400000x1 : S_.BroadcastsInDim S400000x1 (![] : Fin 0 → Fin S400000x1.rank)
  bcast_S400000x1_S400000x160_0_1 : S400000x1.BroadcastsInDim S400000x160 (![0, 1] : Fin 2 → Fin S400000x160.rank)
  bcast_S160_S1x160_1 : S160.BroadcastsInDim S1x160 (![1] : Fin 1 → Fin S1x160.rank)
  bcast_S1x160_S400000x160_0_1 : S1x160.BroadcastsInDim S400000x160 (![0, 1] : Fin 2 → Fin S400000x160.rank)
  bcast_S_S400000x160 : S_.BroadcastsInDim S400000x160 (![] : Fin 0 → Fin S400000x160.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S40000x128_S400000x1_S400000x128_1_0_n_n_0_1_1128_wf : GatherDims.WF S40000x128 S400000x1 S400000x128 [1] [0] [] [0] [] 1 ![1, 128]
  gather_S40000x32_S400000x1_S400000x32_1_0_n_n_0_1_132_wf : GatherDims.WF S40000x32 S400000x1 S400000x32 [1] [0] [] [0] [] 1 ![1, 32]
  dot_S400000x320_S160x320_S400000x160_1_1_0_0_n_n_wf : DotDims.WF S400000x320 S160x320 S400000x160 [1] [1] [0] [0] [] []
  dot_S400000x160_S160x160_S400000x160_1_1_0_0_n_n_wf : DotDims.WF S400000x160 S160x160 S400000x160 [1] [1] [0] [0] [] []
  dot_S400000x160_S1x160_S400000x1_1_1_0_0_n_n_wf : DotDims.WF S400000x160 S1x160 S400000x1 [1] [1] [0] [0] [] []

variable [Facts₀]

def gather_S40000x128_S400000x1_S400000x128_1_0_n_n_0_1_1128 : GatherDims S40000x128 S400000x1 S400000x128 where
  offsetDims := [1]
  collapsedSliceDims := [0]
  operandBatchingDims := []
  startIndicesBatchingDims := []
  startIndexMap := [0]
  indexVectorDim := 1
  sliceSizes := ![1, 128]
  wf := gather_S40000x128_S400000x1_S400000x128_1_0_n_n_0_1_1128_wf
def gather_S40000x32_S400000x1_S400000x32_1_0_n_n_0_1_132 : GatherDims S40000x32 S400000x1 S400000x32 where
  offsetDims := [1]
  collapsedSliceDims := [0]
  operandBatchingDims := []
  startIndicesBatchingDims := []
  startIndexMap := [0]
  indexVectorDim := 1
  sliceSizes := ![1, 32]
  wf := gather_S40000x32_S400000x1_S400000x32_1_0_n_n_0_1_132_wf
def dot_S400000x320_S160x320_S400000x160_1_1_0_0_n_n : DotDims S400000x320 S160x320 S400000x160 where
  lhsContracting := [1]
  rhsContracting := [1]
  lhsNonContracting := [0]
  rhsNonContracting := [0]
  lhsBatch := []
  rhsBatch := []
  wf := dot_S400000x320_S160x320_S400000x160_1_1_0_0_n_n_wf
def dot_S400000x160_S160x160_S400000x160_1_1_0_0_n_n : DotDims S400000x160 S160x160 S400000x160 where
  lhsContracting := [1]
  rhsContracting := [1]
  lhsNonContracting := [0]
  rhsNonContracting := [0]
  lhsBatch := []
  rhsBatch := []
  wf := dot_S400000x160_S160x160_S400000x160_1_1_0_0_n_n_wf
def dot_S400000x160_S1x160_S400000x1_1_1_0_0_n_n : DotDims S400000x160 S1x160 S400000x1 where
  lhsContracting := [1]
  rhsContracting := [1]
  lhsNonContracting := [0]
  rhsNonContracting := [0]
  lhsBatch := []
  rhsBatch := []
  wf := dot_S400000x160_S1x160_S400000x1_1_1_0_0_n_n_wf

class Facts : Prop extends Facts₀ where

variable [Facts]
-- ==== Proof.Spec.lean ====
/-
  The function both programs compute, row by row, on the extended reals.

  Row `n` of the result depends only on row `n` of the four feature arrays and on the weights.  With
  `x = [paths n | Z_pat n | actors (u n) | Z_act (u n)]` (320 features) the network is
    h  = x · w1ᵀ,  a = relu (GN h),  h' = a · w2ᵀ,  t = x · wtᵀ,  out = relu (GN h' + t) · whᵀ + bh
  where GN is the one-group normalisation of a row of 160 with a per-channel affine map:
  mean and variance are the row sum and the row sum of squared deviations over the literal `160`, and
  the deviation is scaled by `rsqrt (variance + ε)`.  Every sum is a finite sum of extended reals; no sum is
  reordered here beyond associativity and commutativity, which hold on the extended reals without any
  finiteness assumption.
-/
import Idealize.ShloMosaic.PureOps.Ideal
import Idealize.ShloMosaic.PureOps.Ideal.Laws
import Idealize.ShloMosaic.Lib.ValueIdx

noncomputable section

open scoped BigOperators

namespace Cert.HeadSpec

open Idealize.ShloMosaic Idealize.ShloMosaic.ValueIdx

/-- The divisor of a row mean: the f32 word of 160. -/
abbrev c160 : EReal := Ideal.ofBits .f32 0x43200000#32
/-- The variance offset ε: the f32 word nearest 1e-5. -/
abbrev cEps : EReal := Ideal.ofBits .f32 0x3727C5AC#32

/-- Mean of a row of 160. -/
def rowMean (h : Fin 160 → EReal) : EReal := Ideal.div (∑ k, h k) c160

/-- Variance of a row of 160: the mean of the squared deviations. -/
def rowVar (h : Fin 160 → EReal) : EReal :=
  Ideal.div (∑ k, (h k - rowMean h) * (h k - rowMean h)) c160

/-- The normalised deviation of entry `j` of a row: `(h j - mean) · rsqrt (variance + ε)`. -/
def rowCore (h : Fin 160 → EReal) (j : Fin 160) : EReal :=
  (h j - rowMean h) * Ideal.rsqrt (rowVar h + cEps)

/-- One-group normalisation of a row with a per-channel scale `w` and shift `b`. -/
def rowNorm (h w b : Fin 160 → EReal) (j : Fin 160) : EReal :=
  rowCore h j * w j + b j

/-- A linear map without bias: `(x · wᵀ) j = ∑ k, x k * w j k`. -/
def lin {K : ℕ} (x : Fin K → EReal) (w : Fin 160 → Fin K → EReal) (j : Fin 160) : EReal :=
  ∑ k, x k * w j k

/-- The 320 features of a row: four pieces of widths 128, 32, 128, 32 laid side by side. -/
def catRow (p : Fin 128 → EReal) (z : Fin 32 → EReal) (a : Fin 128 → EReal) (y : Fin 32 → EReal)
    (k : Fin 320) : EReal :=
  if h₁ : k.val < 128 then p ⟨k.val, h₁⟩
  else if h₂ : k.val < 160 then z ⟨k.val - 128, by omega⟩
  else if h₃ : k.val < 288 then a ⟨k.val - 160, by omega⟩
  else y ⟨k.val - 288, by have := k.isLt; omega⟩

/-- The whole network on one row. -/
def rowOut (x : Fin 320 → EReal) (w1 wt : Fin 160 → Fin 320 → EReal) (w2 : Fin 160 → Fin 160 → EReal)
    (g1w g1b g2w g2b wh : Fin 160 → EReal) (bh : EReal) : EReal :=
  (∑ k, max (rowNorm (lin (fun j => max (rowNorm (lin x w1) g1w g1b j) 0) w2) g2w g2b k + lin x wt k) 0 * wh k) + bh

/-- A sum over the 320 joined features splits at the three joins. -/
theorem sum_catRow (p : Fin 128 → EReal) (z : Fin 32 → EReal) (a : Fin 128 → EReal) (y : Fin 32 → EReal)
    (w : Fin 320 → EReal) :
    ∑ k, catRow p z a y k * w k
      = ((∑ k : Fin 128, p k * w ⟨k.val, by omega⟩ + ∑ k : Fin 32, z k * w ⟨128 + k.val, by omega⟩)
          + ∑ k : Fin 128, a k * w ⟨160 + k.val, by omega⟩) + ∑ k : Fin 32, y k * w ⟨288 + k.val, by omega⟩ := by
  have e : ∀ f : Fin 320 → EReal, ∑ k, f k = ∑ k : Fin (128 + 32 + 128 + 32), f k := fun _ => rfl
  rw [e, Fin.sum_univ_add, Fin.sum_univ_add, Fin.sum_univ_add]
  refine congrArg₂ (· + ·) (congrArg₂ (· + ·) (congrArg₂ (· + ·) ?_ ?_) ?_) ?_
  · refine Finset.sum_congr rfl fun k _ => ?_
    have hk := k.isLt
    simp only [catRow, Fin.coe_castAdd, dif_pos hk]
    exact congrArg₂ (· * ·) rfl (congrArg w (Fin.ext rfl))
  · refine Finset.sum_congr rfl fun k _ => ?_
    have hk := k.isLt
    have h1 : ¬ (128 + k.val < 128) := by omega
    have h2 : 128 + k.val < 160 := by omega
    simp only [catRow, Fin.coe_castAdd, Fin.coe_natAdd, dif_neg h1, dif_pos h2]
    congr 2
    exact Fin.ext (by simp)
  · refine Finset.sum_congr rfl fun k _ => ?_
    have hk := k.isLt
    have h1 : ¬ (128 + 32 + k.val < 128) := by omega
    have h2 : ¬ (128 + 32 + k.val < 160) := by omega
    have h3 : 128 + 32 + k.val < 288 := by omega
    simp only [catRow, Fin.coe_castAdd, Fin.coe_natAdd, dif_neg h1, dif_neg h2, dif_pos h3]
    congr 2
    exact Fin.ext (by simp)
  · refine Finset.sum_congr rfl fun k _ => ?_
    have hk := k.isLt
    have h1 : ¬ (128 + 32 + 128 + k.val < 128) := by omega
    have h2 : ¬ (128 + 32 + 128 + k.val < 160) := by omega
    have h3 : ¬ (128 + 32 + 128 + k.val < 288) := by omega
    simp only [catRow, Fin.coe_natAdd, dif_neg h1, dif_neg h2, dif_neg h3]
    congr 2
    exact Fin.ext (by simp)

/-- Four consecutive stretches of one row of 320, laid side by side again, are the row. -/
theorem catRow_self (f : Fin 320 → EReal) :
    catRow (fun k => f ⟨k.val, by omega⟩) (fun k => f ⟨128 + k.val, by omega⟩)
      (fun k => f ⟨160 + k.val, by omega⟩) (fun k => f ⟨288 + k.val, by omega⟩) = f := by
  funext k
  have hk := k.isLt
  unfold catRow
  split
  · rfl
  · split
    · exact congrArg f (Fin.ext (by simp; omega))
    · split
      · exact congrArg f (Fin.ext (by simp; omega))
      · exact congrArg f (Fin.ext (by simp; omega))

/-- The product of two joined rows sums stretch by stretch. -/
theorem sum_catRow_catRow (p : Fin 128 → EReal) (z : Fin 32 → EReal) (a : Fin 128 → EReal) (y : Fin 32 → EReal)
    (p' : Fin 128 → EReal) (z' : Fin 32 → EReal) (a' : Fin 128 → EReal) (y' : Fin 32 → EReal) :
    ∑ k, catRow p z a y k * catRow p' z' a' y' k
      = ((∑ k : Fin 128, p k * p' k + ∑ k : Fin 32, z k * z' k) + ∑ k : Fin 128, a k * a' k) + ∑ k : Fin 32, y k * y' k := by
  rw [sum_catRow]
  refine congrArg₂ (· + ·) (congrArg₂ (· + ·) (congrArg₂ (· + ·) ?_ ?_) ?_) ?_
  · refine Finset.sum_congr rfl fun k _ => ?_
    have hk := k.isLt
    simp only [catRow, dif_pos hk]
  · refine Finset.sum_congr rfl fun k _ => ?_
    have hk := k.isLt
    have h1 : ¬ (128 + k.val < 128) := by omega
    have h2 : 128 + k.val < 160 := by omega
    simp only [catRow, dif_neg h1, dif_pos h2]
    congr 2
    exact Fin.ext (by simp)
  · refine Finset.sum_congr rfl fun k _ => ?_
    have hk := k.isLt
    have h1 : ¬ (160 + k.val < 128) := by omega
    have h2 : ¬ (160 + k.val < 160) := by omega
    have h3 : 160 + k.val < 288 := by omega
    simp only [catRow, dif_neg h1, dif_neg h2, dif_pos h3]
    congr 2
    exact Fin.ext (by simp)
  · refine Finset.sum_congr rfl fun k _ => ?_
    have hk := k.isLt
    have h1 : ¬ (288 + k.val < 128) := by omega
    have h2 : ¬ (288 + k.val < 160) := by omega
    have h3 : ¬ (288 + k.val < 288) := by omega
    simp only [catRow, dif_neg h1, dif_neg h2, dif_neg h3]
    congr 2
    exact Fin.ext (by simp)

/-- The result array as one function of the argument arrays: `A` and `Z` are the two gathered tables
    (row `n` of `A` is row `u n` of `actors`, likewise `Z`), the rest are the arguments as passed. -/
def G (paths : (⟨2, ![400000, 128]⟩ : Shape).Idx → EReal) (zpat : (⟨2, ![400000, 32]⟩ : Shape).Idx → EReal)
    (A : (⟨2, ![400000, 128]⟩ : Shape).Idx → EReal) (Z : (⟨2, ![400000, 32]⟩ : Shape).Idx → EReal)
    (w1 : (⟨2, ![160, 320]⟩ : Shape).Idx → EReal) (w2 : (⟨2, ![160, 160]⟩ : Shape).Idx → EReal)
    (wt : (⟨2, ![160, 320]⟩ : Shape).Idx → EReal)
    (g1w g1b g2w g2b : (⟨1, ![160]⟩ : Shape).Idx → EReal) (wh : (⟨2, ![1, 160]⟩ : Shape).Idx → EReal)
    (bh : (⟨1, ![1]⟩ : Shape).Idx → EReal) : (⟨2, ![400000, 1]⟩ : Shape).Idx → EReal :=
  fun i =>
    rowOut (catRow (fun k => paths (ix2 (i 0) k)) (fun k => zpat (ix2 (i 0) k)) (fun k => A (ix2 (i 0) k)) (fun k => Z (ix2 (i 0) k)))
      (fun j k => w1 (ix2 j k)) (fun j k => wt (ix2 j k)) (fun j k => w2 (ix2 j k))
      (fun j => g1w (ix1 j)) (fun j => g1b (ix1 j)) (fun j => g2w (ix1 j)) (fun j => g2b (ix1 j))
      (fun k => wh (ix2 (0 : Fin 1) k)) (bh (ix1 (0 : Fin 1)))

end Cert.HeadSpec

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KLayer1.lean ====
/-
  The kernel body's first half at one entry: the split-K first linear layer is the linear map of the joined
  row, and the value handed to the second half is the normalised deviation of the second linear layer's row.
-/
import proofs.«128025_j45535243272619_2_alg».proof.Proof.Gen.KernelIdeal.Skeleton
import proofs.«128025_j45535243272619_2_alg».proof.Proof.Spec
import proofs.«128025_j45535243272619_2_alg».proof.Proof.LibMatmul
import proofs.«128025_j45535243272619_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Layer1

open Cert.KernelIdeal Cert.KernelIdeal.Gen Idealize.ShloMosaic Idealize.ShloMosaic.ValueIdx Cert.HeadSpec

/-- Row `r` of the four feature blocks, joined: 128 + 32 + 128 + 32 features. -/
abbrev xrow (v0 : Vec Ideal S4000x128 .f32) (v2 : Vec Ideal S4000x32 .f32) (v4 : Vec Ideal S4000x128 .bf16)
    (v6 : Vec Ideal S4000x32 .bf16) (r : Fin 4000) : Fin 320 → EReal :=
  catRow (fun k => v0 (ix2 r k)) (fun k => v2 (ix2 r k)) (fun k => v4 (ix2 r k)) (fun k => v6 (ix2 r k))

/-- The four row stretches of a transposed `[320, 160]` weight, joined: entry `(j, k)` is row `k`, column `j`. -/
abbrev wcat (v8 : Vec Ideal S128x160 .bf16) (v11 : Vec Ideal S32x160 .bf16) (v15 : Vec Ideal S128x160 .bf16)
    (v19 : Vec Ideal S32x160 .bf16) : Fin 160 → Fin 320 → EReal :=
  fun j => catRow (fun k => v8 (ix2 k j)) (fun k => v11 (ix2 k j)) (fun k => v15 (ix2 k j)) (fun k => v19 (ix2 k j))

/-! ## The matrix products read at an entry -/

/-- A product of a `[4000, 128]` by a `[128, 160]` block into the zero accumulator, at `(r, j)`. -/
private theorem mm128 {φ₁ φ₂ : FTy} (L : FVec Ideal S4000x128 φ₁) (R : FVec Ideal S128x160 φ₂) (r : Fin 4000) (j : Fin 160) :
    matmul dot_S4000x128_S128x160_S4000x160_1_0_0_1_n_n none L R (constant S4000x160 .f32 0x00000000#32) (ix2 r j)
      = ∑ k : Fin 128, L (ix2 r k) * R (ix2 k j) :=
  Cert.Bridge.LibMatmul.matmul_zero_apply (M := 4000) (K := 128) (N := 160) none L R r j

/-- A product of a `[4000, 32]` by a `[32, 160]` block into the zero accumulator, at `(r, j)`. -/
private theorem mm32 {φ₁ φ₂ : FTy} (L : FVec Ideal S4000x32 φ₁) (R : FVec Ideal S32x160 φ₂) (r : Fin 4000) (j : Fin 160) :
    matmul dot_S4000x32_S32x160_S4000x160_1_0_0_1_n_n none L R (constant S4000x160 .f32 0x00000000#32) (ix2 r j)
      = ∑ k : Fin 32, L (ix2 r k) * R (ix2 k j) :=
  Cert.Bridge.LibMatmul.matmul_zero_apply (M := 4000) (K := 32) (N := 160) none L R r j

/-- A product of a `[4000, 160]` by a `[160, 160]` block into the zero accumulator, at `(r, j)`. -/
private theorem mm160 {φ₁ φ₂ : FTy} (L : FVec Ideal S4000x160 φ₁) (R : FVec Ideal S160x160 φ₂) (r : Fin 4000) (j : Fin 160) :
    matmul dot_S4000x160_S160x160_S4000x160_1_0_0_1_n_n none L R (constant S4000x160 .f32 0x00000000#32) (ix2 r j)
      = ∑ k : Fin 160, L (ix2 r k) * R (ix2 k j) :=
  Cert.Bridge.LibMatmul.matmul_zero_apply (M := 4000) (K := 160) (N := 160) none L R r j

/-! ## Row statistics read at an entry -/

/-- The sum over the second axis of a `[4000, 160]` array, at row `r`. -/
private theorem rowsum (src : FVec Ideal S4000x160 .f32) (r : Fin 4000) :
    multiReduction .add [1] S4000 src 0x00000000#32 reduces_S4000x160_S4000 (.inl rfl) rfl (ix1 r)
      = ∑ k : Fin 160, src (ix2 r k) := by
  refine (Ideal.multiReduction_add_single src 0x00000000#32 reduces_S4000x160_S4000 (.inl rfl) rfl (ix1 r)).trans ?_
  refine Finset.sum_congr rfl fun k _ => congrArg src ?_
  funext a
  refine Fin.ext ?_
  match a with
  | ⟨0, _⟩ => rfl
  | ⟨1, _⟩ => rfl

/-- The row mean as the body computes it: the sum over the second axis, viewed as a column, over the splat of 160. -/
private abbrev meanOf (src : FVec Ideal S4000x160 .f32) : FVec Ideal S4000x1 .f32 :=
  divf (shapeCast S4000x1 (multiReduction .add [1] S4000 src 0x00000000#32 reduces_S4000x160_S4000 (.inl rfl) rfl)
    shapeCasts_S4000_S4000x1) (broadcast S4000x1 (Scalar.ofBits (F := Ideal) .f32 0x43200000#32))

/-- The normalised deviation as the body computes it, from a source, its mean column and its deviation (the body
    forms the deviation twice: once for the squares, once for the product). -/
private abbrev coreOf (src : FVec Ideal S4000x160 .f32) (mean : FVec Ideal S4000x1 .f32) (dev : FVec Ideal S4000x160 .f32) :
    FVec Ideal S4000x160 .f32 :=
  mulf (subf src (broadcastTo S4000x160 mean broadcasts_S4000x1_S4000x160))
    (broadcastTo S4000x160 (rsqrt (addf (meanOf (mulf dev dev))
      (broadcast S4000x1 (Scalar.ofBits (F := Ideal) .f32 0x3727C5AC#32)))) broadcasts_S4000x1_S4000x160)

/-- The mean column at row `r` is the mean of row `r`. -/
private theorem meanOf_apply (src : FVec Ideal S4000x160 .f32) (r : Fin 4000) :
    meanOf src (ix2 r (0 : Fin 1)) = rowMean (fun k => src (ix2 r k)) := by
  show Ideal.div (shapeCast S4000x1 _ shapeCasts_S4000_S4000x1 (ix2 r (0 : Fin 1))) c160 = _
  rw [Cert.Lib.UnitAxis.shapeCast_a_a1_apply, rowsum]
  rfl

/-- The normalised deviation at `(r, j)`, given that the mean column and the deviation array are those of the source. -/
private theorem coreOf_apply (src : FVec Ideal S4000x160 .f32) (mean : FVec Ideal S4000x1 .f32) (dev : FVec Ideal S4000x160 .f32)
    (hmean : ∀ r : Fin 4000, mean (ix2 r (0 : Fin 1)) = rowMean (fun k => src (ix2 r k)))
    (hdev : ∀ (r : Fin 4000) (k : Fin 160), dev (ix2 r k) = src (ix2 r k) - rowMean (fun k => src (ix2 r k)))
    (r : Fin 4000) (j : Fin 160) :
    coreOf src mean dev (ix2 r j) = rowCore (fun k => src (ix2 r k)) j := by
  show (src (ix2 r j) - broadcastTo S4000x160 mean broadcasts_S4000x1_S4000x160 (ix2 r j))
      * broadcastTo S4000x160 _ broadcasts_S4000x1_S4000x160 (ix2 r j) = _
  rw [Cert.Lib.UnitAxis.broadcastTo_a1_ab_apply, Cert.Lib.UnitAxis.broadcastTo_a1_ab_apply, hmean]
  show _ * Ideal.rsqrt (meanOf (mulf dev dev) (ix2 r (0 : Fin 1)) + cEps) = _
  rw [meanOf_apply]
  unfold rowCore rowVar
  simp only [mulf_apply, hdev]
  rfl

/-! ## The second half of the body as one term -/

/-- The scaled, shifted and clamped normalised row, as the body computes it. -/
private abbrev hidOf (v22 : FVec Ideal S4000x160 .f32) (v24 v26 : FVec Ideal S1x160 .f32) (v30 : FVec Ideal S4000x1 .f32)
    (v32 : FVec Ideal S4000x160 .f32) : FVec Ideal S4000x160 .f32 :=
  maximumf (addf (mulf (coreOf v22 v30 v32) (broadcastTo S4000x160 v24 broadcasts_S1x160_S4000x160))
      (broadcastTo S4000x160 v26 broadcasts_S1x160_S4000x160))
    (broadcast S4000x160 (Scalar.ofBits (F := Ideal) .f32 0x00000000#32))

/-- The second linear layer, as the body computes it. -/
private abbrev lay2Of (a : FVec Ideal S4000x160 .f32) (v51 : Vec Ideal S160x160 .bf16) : FVec Ideal S4000x160 .f32 :=
  matmul dot_S4000x160_S160x160_S4000x160_1_0_0_1_n_n none (truncf .bf16 a bitsLt_bf16_f32 : FVec Ideal S4000x160 .bf16)
    (shapeCast S160x160 v51 shapeCasts_S160x160_S160x160 : FVec Ideal S160x160 .bf16) (constant S4000x160 .f32 0x00000000#32)

/-- The handed-on value is the normalised deviation of the second layer's output. -/
private theorem pay13_eq (v22 : FVec Ideal S4000x160 .f32) (v24 v26 : FVec Ideal S1x160 .f32) (v30 : FVec Ideal S4000x1 .f32)
    (v32 : FVec Ideal S4000x160 .f32) (v51 : Vec Ideal S160x160 .bf16) :
    k0_pay13 v22 v24 v26 v30 v32 v51
      = coreOf (lay2Of (hidOf v22 v24 v26 v30 v32) v51) (meanOf (lay2Of (hidOf v22 v24 v26 v30 v32) v51))
          (subf (lay2Of (hidOf v22 v24 v26 v30 v32) v51)
            (broadcastTo S4000x160 (meanOf (lay2Of (hidOf v22 v24 v26 v30 v32) v51)) broadcasts_S4000x1_S4000x160)) :=
  rfl

/-- The scaled, shifted and clamped normalised row at `(r, k)`. -/
private theorem hidOf_apply (v22 : FVec Ideal S4000x160 .f32) (v24 v26 : FVec Ideal S1x160 .f32) (v30 : FVec Ideal S4000x1 .f32)
    (v32 : FVec Ideal S4000x160 .f32)
    (hmean : ∀ r : Fin 4000, v30 (ix2 r (0 : Fin 1)) = rowMean (fun k => v22 (ix2 r k)))
    (hdev : ∀ (r : Fin 4000) (k : Fin 160), v32 (ix2 r k) = v22 (ix2 r k) - rowMean (fun k => v22 (ix2 r k)))
    (r : Fin 4000) (k : Fin 160) :
    hidOf v22 v24 v26 v30 v32 (ix2 r k)
      = max (rowNorm (fun c => v22 (ix2 r c)) (fun c => v24 (ix2 (0 : Fin 1) c)) (fun c => v26 (ix2 (0 : Fin 1) c)) k) 0 := by
  show max (coreOf v22 v30 v32 (ix2 r k) * broadcastTo S4000x160 v24 broadcasts_S1x160_S4000x160 (ix2 r k)
      + broadcastTo S4000x160 v26 broadcasts_S1x160_S4000x160 (ix2 r k)) (Ideal.ofBits .f32 0x00000000#32) = _
  rw [coreOf_apply v22 v30 v32 hmean hdev, broadcastTo_1b_ab_apply, broadcastTo_1b_ab_apply, Ideal.ofBits_zero_f32]
  rfl

/-- The four partial products of the split contraction add up to the linear map of the joined row. -/
theorem pay6_apply (v0 : Vec Ideal S4000x128 .f32) (v2 : Vec Ideal S4000x32 .f32) (v4 : Vec Ideal S4000x128 .bf16)
    (v6 : Vec Ideal S4000x32 .bf16) (v8 : Vec Ideal S128x160 .bf16) (v11 : Vec Ideal S32x160 .bf16)
    (v15 : Vec Ideal S128x160 .bf16) (v19 : Vec Ideal S32x160 .bf16) (r : Fin 4000) (j : Fin 160) :
    k0_pay6 v0 v2 v4 v6 v8 v11 v15 v19 (ix2 r j) = lin (xrow v0 v2 v4 v6 r) (wcat v8 v11 v15 v19) j := by
  refine (congrArg₂ (· + ·) (congrArg₂ (· + ·) (congrArg₂ (· + ·) (mm128 _ _ r j) (mm32 _ _ r j)) (mm128 _ _ r j))
    (mm32 _ _ r j)).trans ?_
  unfold k0_pay2 k0_pay3 k0_pay4 k0_pay5
  simp only [shapeCast_self]
  exact (sum_catRow_catRow (fun k => v0 (ix2 r k)) (fun k => v2 (ix2 r k)) (fun k => v4 (ix2 r k))
    (fun k => v6 (ix2 r k)) (fun k => v8 (ix2 k j)) (fun k => v11 (ix2 k j)) (fun k => v15 (ix2 k j))
    (fun k => v19 (ix2 k j))).symm

/-- The value the first half hands on, at `(r, j)`: normalise row `r` of the first layer, clamp at zero, apply the
    second linear layer (its weight block arrives transposed), and take the normalised deviation of that row. -/
theorem v76_apply (v0 : Vec Ideal S4000x128 .f32) (v2 : Vec Ideal S4000x32 .f32) (v4 : Vec Ideal S4000x128 .bf16)
    (v6 : Vec Ideal S4000x32 .bf16) (v8 : Vec Ideal S128x160 .bf16) (v11 : Vec Ideal S32x160 .bf16)
    (v15 : Vec Ideal S128x160 .bf16) (v19 : Vec Ideal S32x160 .bf16) (v23 v25 : Vec Ideal S1x160 .f32)
    (v51 : Vec Ideal S160x160 .bf16) (r : Fin 4000) (j : Fin 160) :
    k0_pay13 (k0_pay6 v0 v2 v4 v6 v8 v11 v15 v19) (k0_pay7 v23) (k0_pay8 v25) (k0_pay9 v0 v2 v4 v6 v8 v11 v15 v19)
        (k0_pay10 v0 v2 v4 v6 v8 v11 v15 v19) v51 (ix2 r j)
      = rowCore (lin (fun j' => max (rowNorm (lin (xrow v0 v2 v4 v6 r) (wcat v8 v11 v15 v19))
            (fun c => v23 (ix2 (0 : Fin 1) c)) (fun c => v25 (ix2 (0 : Fin 1) c)) j') 0)
          (fun c k => v51 (ix2 k c))) j := by
  have h6 : (fun c => k0_pay6 v0 v2 v4 v6 v8 v11 v15 v19 (ix2 r c)) = lin (xrow v0 v2 v4 v6 r) (wcat v8 v11 v15 v19) :=
    funext fun c => pay6_apply v0 v2 v4 v6 v8 v11 v15 v19 r c
  have h7 : k0_pay7 v23 = v23 := shapeCast_self _ _
  have h8 : k0_pay8 v25 = v25 := shapeCast_self _ _
  have hmean : ∀ r' : Fin 4000, k0_pay9 v0 v2 v4 v6 v8 v11 v15 v19 (ix2 r' (0 : Fin 1))
      = rowMean (fun k => k0_pay6 v0 v2 v4 v6 v8 v11 v15 v19 (ix2 r' k)) :=
    fun r' => meanOf_apply (k0_pay6 v0 v2 v4 v6 v8 v11 v15 v19) r'
  have hdev : ∀ (r' : Fin 4000) (k : Fin 160), k0_pay10 v0 v2 v4 v6 v8 v11 v15 v19 (ix2 r' k)
      = k0_pay6 v0 v2 v4 v6 v8 v11 v15 v19 (ix2 r' k) - rowMean (fun k => k0_pay6 v0 v2 v4 v6 v8 v11 v15 v19 (ix2 r' k)) := by
    intro r' k
    show _ - broadcastTo S4000x160 (k0_pay9 v0 v2 v4 v6 v8 v11 v15 v19) broadcasts_S4000x1_S4000x160 (ix2 r' k) = _
    rw [Cert.Lib.UnitAxis.broadcastTo_a1_ab_apply, hmean]
  rw [pay13_eq]
  refine (coreOf_apply _ _ _ (fun r' => meanOf_apply _ r') (fun r' k => ?_) r j).trans ?_
  · show _ - broadcastTo S4000x160 _ broadcasts_S4000x1_S4000x160 (ix2 r' k) = _
    rw [Cert.Lib.UnitAxis.broadcastTo_a1_ab_apply, meanOf_apply]
  · refine congrArg (fun h => rowCore h j) (funext fun c => ?_)
    refine (mm160 _ _ r c).trans ?_
    refine Finset.sum_congr rfl fun k _ => ?_
    rw [shapeCast_self]
    refine congrArg (· * v51 (ix2 k c)) ?_
    refine (hidOf_apply _ _ _ _ _ hmean hdev r k).trans ?_
    rw [h6, h7, h8]

end Cert.KernelIdeal.Layer1

end
-- ==== Proof.KPayload.lean ====
/-
  The kernel body's result at one row: what the body stores at row `r` of its output block is the network
  of `Spec.lean` applied to row `r` of the four feature blocks and to the (transposed) weight blocks.
-/
import proofs.«128025_j45535243272619_2_alg».proof.Proof.Gen.KernelIdeal.Frame
import proofs.«128025_j45535243272619_2_alg».proof.Proof.Spec
import proofs.«128025_j45535243272619_2_alg».proof.Proof.KLayer1
import proofs.«128025_j45535243272619_2_alg».proof.Proof.LibMatmul
import proofs.«128025_j45535243272619_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.HeadSpec

/-- The four partial products of the split contraction, each into a zero accumulator and added left to right,
    are the linear map of the joined row. -/
private theorem transform_apply (v1 : FVec Ideal S4000x128 .bf16) (v3 : FVec Ideal S4000x32 .bf16) (v5 : FVec Ideal S4000x128 .bf16)
    (v7 : FVec Ideal S4000x32 .bf16) (v81 : FVec Ideal S128x160 .bf16) (v84 : FVec Ideal S32x160 .bf16)
    (v88 : FVec Ideal S128x160 .bf16) (v92 : FVec Ideal S32x160 .bf16) (r : Fin 4000) (k : Fin 160) :
    addf (addf (addf
        (matmul dot_S4000x128_S128x160_S4000x160_1_0_0_1_n_n none v1
          (shapeCast S128x160 v81 shapeCasts_S128x160_S128x160 : FVec Ideal S128x160 .bf16) (constant S4000x160 FTy.f32 0x00000000#32))
        (matmul dot_S4000x32_S32x160_S4000x160_1_0_0_1_n_n none v3
          (shapeCast S32x160 v84 shapeCasts_S32x160_S32x160 : FVec Ideal S32x160 .bf16) (constant S4000x160 FTy.f32 0x00000000#32)))
        (matmul dot_S4000x128_S128x160_S4000x160_1_0_0_1_n_n none v5
          (shapeCast S128x160 v88 shapeCasts_S128x160_S128x160 : FVec Ideal S128x160 .bf16) (constant S4000x160 FTy.f32 0x00000000#32)))
        (matmul dot_S4000x32_S32x160_S4000x160_1_0_0_1_n_n none v7
          (shapeCast S32x160 v92 shapeCasts_S32x160_S32x160 : FVec Ideal S32x160 .bf16) (constant S4000x160 FTy.f32 0x00000000#32)) (ix2 r k)
      = lin (catRow (fun c => v1 (ix2 r c)) (fun c => v3 (ix2 r c)) (fun c => v5 (ix2 r c)) (fun c => v7 (ix2 r c)))
          (Layer1.wcat v81 v84 v88 v92) k := by
  rw [shapeCast_self, shapeCast_self, shapeCast_self, shapeCast_self]
  have e1 : matmul dot_S4000x128_S128x160_S4000x160_1_0_0_1_n_n none v1 v81
      (constant S4000x160 FTy.f32 0x00000000#32) (ix2 r k) = ∑ c : Fin 128, v1 (ix2 r c) * v81 (ix2 c k) :=
    Cert.Bridge.LibMatmul.matmul_zero_apply (M := 4000) (K := 128) (N := 160) none v1 v81 r k
  have e2 : matmul dot_S4000x32_S32x160_S4000x160_1_0_0_1_n_n none v3 v84
      (constant S4000x160 FTy.f32 0x00000000#32) (ix2 r k) = ∑ c : Fin 32, v3 (ix2 r c) * v84 (ix2 c k) :=
    Cert.Bridge.LibMatmul.matmul_zero_apply (M := 4000) (K := 32) (N := 160) none v3 v84 r k
  have e3 : matmul dot_S4000x128_S128x160_S4000x160_1_0_0_1_n_n none v5 v88
      (constant S4000x160 FTy.f32 0x00000000#32) (ix2 r k) = ∑ c : Fin 128, v5 (ix2 r c) * v88 (ix2 c k) :=
    Cert.Bridge.LibMatmul.matmul_zero_apply (M := 4000) (K := 128) (N := 160) none v5 v88 r k
  have e4 : matmul dot_S4000x32_S32x160_S4000x160_1_0_0_1_n_n none v7 v92
      (constant S4000x160 FTy.f32 0x00000000#32) (ix2 r k) = ∑ c : Fin 32, v7 (ix2 r c) * v92 (ix2 c k) :=
    Cert.Bridge.LibMatmul.matmul_zero_apply (M := 4000) (K := 32) (N := 160) none v7 v92 r k
  refine (addf_apply _ _ _).trans ?_
  refine (congrArg₂ (· + ·) ((addf_apply _ _ _).trans (congrArg₂ (· + ·) ((addf_apply _ _ _).trans
    (congrArg₂ (· + ·) e1 e2)) e3)) e4).trans ?_
  exact (sum_catRow_catRow _ _ _ _ _ _ _ _).symm

/-- The body's last stage at row `r`: the affine map on the normalised deviations plus the linear map of the joined
    row, clamped at zero, weighted by the head row and summed over the 160 channels, plus the head's shift. -/
private theorem pay1_apply (v1 : FVec Ideal S4000x128 .bf16) (v3 : FVec Ideal S4000x32 .bf16) (v5 : FVec Ideal S4000x128 .bf16)
    (v7 : FVec Ideal S4000x32 .bf16) (v56 v58 : FVec Ideal S1x160 .f32) (v76 : FVec Ideal S4000x160 .f32)
    (v81 : Vec Ideal S128x160 .bf16) (v84 : Vec Ideal S32x160 .bf16) (v88 : Vec Ideal S128x160 .bf16)
    (v92 : Vec Ideal S32x160 .bf16) (v99 : Vec Ideal S1x160 .f32) (v104 : Vec Ideal S1x1 .f32) (r : Fin 4000) (u : Fin 1) :
    k0_pay1 v1 v3 v5 v7 v56 v58 v76 v81 v84 v88 v92 v99 v104 (ix2 r u)
      = (∑ k : Fin 160, max ((v76 (ix2 r k) * v56 (ix2 (0 : Fin 1) k) + v58 (ix2 (0 : Fin 1) k))
            + lin (catRow (fun c => v1 (ix2 r c)) (fun c => v3 (ix2 r c)) (fun c => v5 (ix2 r c)) (fun c => v7 (ix2 r c)))
                (Layer1.wcat v81 v84 v88 v92) k) 0 * v99 (ix2 (0 : Fin 1) k))
          + v104 (ix2 (0 : Fin 1) (0 : Fin 1)) := by
  unfold k0_pay1
  refine (addf_apply _ _ _).trans ?_
  refine congrArg₂ (· + ·) ?_ ?_
  · refine (Cert.Lib.UnitAxis.shapeCast_a_a1_apply _ _ r u).trans ?_
    refine (Ideal.multiReduction_add_single _ _ _ _ _ (ix1 r)).trans ?_
    refine Finset.sum_congr rfl fun k _ => ?_
    have hl : reduces_S4000x160_S4000.lift (ix1 r) k = ix2 r k := by
      funext a
      match a with
      | ⟨0, _⟩ => rfl
      | ⟨1, _⟩ => rfl
    rw [hl]
    refine (mulf_apply _ _ _).trans ?_
    refine congrArg₂ (· * ·) ?_ (broadcastTo_1b_ab_apply v99 _ r k)
    refine (maximumf_apply _ _ _).trans ?_
    refine congrArg₂ max ?_ Ideal.ofBits_zero_f32
    refine (addf_apply _ _ _).trans ?_
    refine congrArg₂ (· + ·) ?_ (transform_apply v1 v3 v5 v7 v81 v84 v88 v92 r k)
    refine (addf_apply _ _ _).trans ?_
    refine congrArg₂ (· + ·) ?_ (broadcastTo_1b_ab_apply v58 _ r k)
    refine (mulf_apply _ _ _).trans ?_
    exact congrArg₂ (· * ·) rfl (broadcastTo_1b_ab_apply v56 _ r k)
  · rw [shapeCast_self]
    exact broadcastTo_apply v104 _ (ix2 r u) (ix2 (0 : Fin 1) (0 : Fin 1)) fun ax => by
      match ax with
      | ⟨0, _⟩ => rfl
      | ⟨1, _⟩ => rfl

/-- The zero offsets of a whole-block rectangle, however spelt. -/
private theorem hz : (![0, 0] : Fin 2 → Nat) = fun _ => 0 := funext fun a => by fin_cases a <;> rfl

/-- The first stretch of a `[320, 160]` block: rows `0 … 127`. -/
private theorem ld_r2 (x : Vec Ideal S320x160 .bf16) (k : Fin 128) (j : Fin 160) :
    View.ld x r0_2 (ix2 k j) = x (ix2 (⟨k.val, by omega⟩ : Fin 320) j) := by
  show x (r0_2.emb (ix2 k j)) = _
  refine congrArg x (funext fun a => Fin.ext ?_)
  match a with
  | ⟨0, _⟩ => show 0 + 1 * k.val = k.val; omega
  | ⟨1, _⟩ => show 0 + 1 * j.val = j.val; omega

/-- The second stretch: rows `128 … 159`. -/
private theorem ld_r3 (x : Vec Ideal S320x160 .bf16) (k : Fin 32) (j : Fin 160) :
    View.ld x r0_3 (ix2 k j) = x (ix2 (⟨128 + k.val, by omega⟩ : Fin 320) j) := by
  show x (r0_3.emb (ix2 k j)) = _
  refine congrArg x (funext fun a => Fin.ext ?_)
  match a with
  | ⟨0, _⟩ => show 128 + 1 * k.val = 128 + k.val; omega
  | ⟨1, _⟩ => show 0 + 1 * j.val = j.val; omega

/-- The third stretch: rows `160 … 287`. -/
private theorem ld_r4 (x : Vec Ideal S320x160 .bf16) (k : Fin 128) (j : Fin 160) :
    View.ld x r0_4 (ix2 k j) = x (ix2 (⟨160 + k.val, by omega⟩ : Fin 320) j) := by
  show x (r0_4.emb (ix2 k j)) = _
  refine congrArg x (funext fun a => Fin.ext ?_)
  match a with
  | ⟨0, _⟩ => show 160 + 1 * k.val = 160 + k.val; omega
  | ⟨1, _⟩ => show 0 + 1 * j.val = j.val; omega

/-- The fourth stretch: rows `288 … 319`. -/
private theorem ld_r5 (x : Vec Ideal S320x160 .bf16) (k : Fin 32) (j : Fin 160) :
    View.ld x r0_5 (ix2 k j) = x (ix2 (⟨288 + k.val, by omega⟩ : Fin 320) j) := by
  show x (r0_5.emb (ix2 k j)) = _
  refine congrArg x (funext fun a => Fin.ext ?_)
  match a with
  | ⟨0, _⟩ => show 288 + 1 * k.val = 288 + k.val; omega
  | ⟨1, _⟩ => show 0 + 1 * j.val = j.val; omega

/-- The four stretches of a transposed `[320, 160]` weight block, joined, are the block's columns. -/
private theorem wcat_ld (x : Vec Ideal S320x160 .bf16) :
    Layer1.wcat (View.ld x r0_2) (View.ld x r0_3) (View.ld x r0_4) (View.ld x r0_5) = fun j k => x (ix2 k j) := by
  funext j
  refine Eq.trans ?_ (catRow_self (fun k => x (ix2 k j)))
  exact congr (congr (congr (congrArg catRow (funext fun k => ld_r2 x k j)) (funext fun k => ld_r3 x k j))
    (funext fun k => ld_r4 x k j)) (funext fun k => ld_r5 x k j)

/-! A change of format is the identity on the extended reals, and a cast to the same shape is the identity. -/

private theorem pay2_eq (v : Vec Ideal S4000x128 .f32) : k0_pay2 v = v := rfl
private theorem pay3_eq (v : Vec Ideal S4000x32 .f32) : k0_pay3 v = v := rfl
private theorem pay4_eq (v : Vec Ideal S4000x128 .bf16) : k0_pay4 v = v := shapeCast_self v _
private theorem pay5_eq (v : Vec Ideal S4000x32 .bf16) : k0_pay5 v = v := shapeCast_self v _
private theorem pay11_eq (v : Vec Ideal S1x160 .f32) : k0_pay11 v = v := shapeCast_self v _
private theorem pay12_eq (v : Vec Ideal S1x160 .f32) : k0_pay12 v = v := shapeCast_self v _

/-- Row `r` of the body's output block is the network on row `r` of the feature blocks; the weight
    blocks arrive transposed (`x4 (k, j) = w1 j k`), the per-channel vectors as `[1, 160]` rows. -/
theorem out_apply (x0 : Vec Ideal S4000x128 .f32) (x1 : Vec Ideal S4000x32 .f32) (x2 : Vec Ideal S4000x128 .bf16)
    (x3 : Vec Ideal S4000x32 .bf16) (x4 : Vec Ideal S320x160 .bf16) (x5 : Vec Ideal S160x160 .bf16)
    (x6 : Vec Ideal S320x160 .bf16) (x7 x8 x9 x10 x11 : Vec Ideal S1x160 .f32) (x12 : Vec Ideal S1x1 .f32)
    (r : Fin 4000) (u : Fin 1) :
    out0_13 x0 x1 x2 x3 x4 x5 x6 x7 x8 x9 x10 x11 x12 (ix2 r u)
      = rowOut (catRow (fun k => x0 (ix2 r k)) (fun k => x1 (ix2 r k)) (fun k => x2 (ix2 r k)) (fun k => x3 (ix2 r k)))
          (fun j k => x4 (ix2 k j)) (fun j k => x6 (ix2 k j)) (fun j k => x5 (ix2 k j))
          (fun j => x7 (ix2 (0 : Fin 1) j)) (fun j => x8 (ix2 (0 : Fin 1) j))
          (fun j => x9 (ix2 (0 : Fin 1) j)) (fun j => x10 (ix2 (0 : Fin 1) j))
          (fun k => x11 (ix2 (0 : Fin 1) k)) (x12 (ix2 (0 : Fin 1) (0 : Fin 1))) := by
  unfold out0_13
  rw [View.canon_unit_zero hz]
  simp only [View.ld_unit_zero (S := S4000x128) hz, View.ld_unit_zero (S := S4000x32) hz,
    View.ld_unit_zero (S := S1x160) hz, View.ld_unit_zero (S := S160x160) hz, View.ld_unit_zero (S := S1x1) hz]
  rw [pay2_eq, pay3_eq, pay4_eq, pay5_eq, pay11_eq, pay12_eq]
  refine (pay1_apply _ _ _ _ _ _ _ _ _ _ _ _ _ r u).trans ?_
  rw [wcat_ld x6]
  refine congrArg₂ (· + ·) (Finset.sum_congr rfl fun k _ => ?_) rfl
  refine congrArg₂ (· * ·) (congrArg₂ max (congrArg₂ (· + ·) ?_ rfl) rfl) rfl
  refine congrArg₂ (· + ·) (congrArg₂ (· * ·) ?_ rfl) rfl
  refine (Layer1.v76_apply x0 x1 x2 x3 _ _ _ _ x7 x8 x5 r k).trans ?_
  rw [wcat_ld x4]

end Cert.KernelIdeal.Payload

end
-- ==== Proof.KBlocks.lean ====
/-
  From blocks to the array.  Grid point `t` of the one-axis grid of 100 points stages rows
  `4000 t … 4000 t + 3999` of the four feature arrays and the whole of every weight array, and writes back rows
  `4000 t … 4000 t + 3999` of the result.  The feature arrays `A`, `Z` the region finds are the two host gathers; the
  weight arrays it finds are the transposed arguments, the per-channel vectors the arguments as `[1, 160]` rows.
  So what point `t` writes back is block `t` of `HeadSpec.G` of the arguments, and the 100 blocks tile the result.
-/
import proofs.«128025_j45535243272619_2_alg».proof.Proof.Gen.KernelIdeal.Frame
import proofs.«128025_j45535243272619_2_alg».proof.Proof.Gen.KernelIdeal.Value
import proofs.«128025_j45535243272619_2_alg».proof.Proof.Spec
import proofs.«128025_j45535243272619_2_alg».proof.Proof.KPayload
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.HeadSpec

variable (m : (ℓ : Loc nD τ sig) → Buf (Elt Ideal) ℓ) (ρ : Dev nD → PrngReg)

/-! ## The arrays the region finds -/

/-- The row numbers the two gathers read at: a negative row number is wrapped once (`u < 0 → u + 40000`), and the
    vector is made a column. -/
def rowIdx (x4 : (⟨S400000, .i32⟩ : BufTy).Contents (Elt Ideal)) : (⟨S400000x1, .i32⟩ : BufTy).Contents (Elt Ideal) :=
  broadcastInDim S400000x1 ![0] bcast_S400000_S400000x1_0
    (select (cmpi .slt x4 (broadcastInDim S400000 ![] bcast_S_S400000 (constantI S_ 32 0#32)))
      (addi x4 (broadcastInDim S400000 ![] bcast_S_S400000 (constantI S_ 32 40000#32))) x4)

/-- The gathered `actors` rows, one per path (the table's change of float format is the identity here). -/
def gatherA (x0 : (⟨S40000x128, .f32⟩ : BufTy).Contents (Elt Ideal)) (x4 : (⟨S400000, .i32⟩ : BufTy).Contents (Elt Ideal)) :
    (⟨S400000x128, .bf16⟩ : BufTy).Contents (Elt Ideal) :=
  Host.gather gather_S40000x128_S400000x1_S400000x128_1_0_n_n_0_1_1128
    (truncf (F := Ideal) .bf16 (x0 : FVec Ideal S40000x128 .f32) bitsLt_bf16_f32 : FVec Ideal S40000x128 .bf16) (rowIdx x4)

/-- The gathered `Z_act` rows, one per path. -/
def gatherZ (x2 : (⟨S40000x32, .f32⟩ : BufTy).Contents (Elt Ideal)) (x4 : (⟨S400000, .i32⟩ : BufTy).Contents (Elt Ideal)) :
    (⟨S400000x32, .bf16⟩ : BufTy).Contents (Elt Ideal) :=
  Host.gather gather_S40000x32_S400000x1_S400000x32_1_0_n_n_0_1_132
    (truncf (F := Ideal) .bf16 (x2 : FVec Ideal S40000x32 .f32) bitsLt_bf16_f32 : FVec Ideal S40000x32 .bf16) (rowIdx x4)

theorem V_v8 (c : Dev nD) : (V m c main_v8 : S400000x128.Idx → EReal) = gatherA (m ((c : Thread nD τ).loc main_arg0)) (m ((c : Thread nD τ).loc main_arg4)) := by
  dsimp only [Gen.V, Gen.hostOps0]; after_results; rfl

set_option maxHeartbeats 2000000 in
theorem V_v15 (c : Dev nD) : (V m c main_v15 : S400000x32.Idx → EReal) = gatherZ (m ((c : Thread nD τ).loc main_arg2)) (m ((c : Thread nD τ).loc main_arg4)) := by
  dsimp only [Gen.V, Gen.hostOps0]; after_results; rfl

/-- A transposed weight the region finds, at `(k, j)`, is the argument at `(j, k)`. -/
theorem V_v17_apply (c : Dev nD) (k : Fin 320) (j : Fin 160) :
    (V m c main_v17 : S320x160.Idx → EReal) (ix2 k j) = ((m ((c : Thread nD τ).loc main_arg5)) : S160x320.Idx → EReal) (ix2 j k) := by
  have e : (V m c main_v17 : S320x160.Idx → EReal)
      = (truncf (F := Ideal) .bf16 (transpose S320x160 [1, 0] ((m ((c : Thread nD τ).loc main_arg5)) : FVec Ideal S160x320 .f32) transposes_S160x320_S320x160_1_0 : FVec Ideal S320x160 .f32) bitsLt_bf16_f32 : FVec Ideal S320x160 .bf16) := by
    dsimp only [Gen.V, Gen.hostOps0]; after_results
  rw [e]
  show transpose S320x160 [1, 0] ((m ((c : Thread nD τ).loc main_arg5)) : S160x320.Idx → EReal) transposes_S160x320_S320x160_1_0 (ix2 k j) = _
  exact transpose_apply _ _ _ (ix2 k j) (ix2 j k) (fun b => by match b with | ⟨0, _⟩ => rfl | ⟨1, _⟩ => rfl)

theorem V_v19_apply (c : Dev nD) (k : Fin 160) (j : Fin 160) :
    (V m c main_v19 : S160x160.Idx → EReal) (ix2 k j) = ((m ((c : Thread nD τ).loc main_arg6)) : S160x160.Idx → EReal) (ix2 j k) := by
  have e : (V m c main_v19 : S160x160.Idx → EReal)
      = (truncf (F := Ideal) .bf16 (transpose S160x160 [1, 0] ((m ((c : Thread nD τ).loc main_arg6)) : FVec Ideal S160x160 .f32) transposes_S160x160_S160x160_1_0 : FVec Ideal S160x160 .f32) bitsLt_bf16_f32 : FVec Ideal S160x160 .bf16) := by
    dsimp only [Gen.V, Gen.hostOps0]; after_results
  rw [e]
  show transpose S160x160 [1, 0] ((m ((c : Thread nD τ).loc main_arg6)) : S160x160.Idx → EReal) transposes_S160x160_S160x160_1_0 (ix2 k j) = _
  exact transpose_apply _ _ _ (ix2 k j) (ix2 j k) (fun b => by match b with | ⟨0, _⟩ => rfl | ⟨1, _⟩ => rfl)

theorem V_v21_apply (c : Dev nD) (k : Fin 320) (j : Fin 160) :
    (V m c main_v21 : S320x160.Idx → EReal) (ix2 k j) = ((m ((c : Thread nD τ).loc main_arg7)) : S160x320.Idx → EReal) (ix2 j k) := by
  have e : (V m c main_v21 : S320x160.Idx → EReal)
      = (truncf (F := Ideal) .bf16 (transpose S320x160 [1, 0] ((m ((c : Thread nD τ).loc main_arg7)) : FVec Ideal S160x320 .f32) transposes_S160x320_S320x160_1_0 : FVec Ideal S320x160 .f32) bitsLt_bf16_f32 : FVec Ideal S320x160 .bf16) := by
    dsimp only [Gen.V, Gen.hostOps0]; after_results
  rw [e]
  show transpose S320x160 [1, 0] ((m ((c : Thread nD τ).loc main_arg7)) : S160x320.Idx → EReal) transposes_S160x320_S320x160_1_0 (ix2 k j) = _
  exact transpose_apply _ _ _ (ix2 k j) (ix2 j k) (fun b => by match b with | ⟨0, _⟩ => rfl | ⟨1, _⟩ => rfl)

/-- A per-channel vector made a `[1, 160]` row, at `(0, j)`, is the argument at `j`. -/
theorem V_v22_apply (c : Dev nD) (j : Fin 160) :
    (V m c main_v22 : S1x160.Idx → EReal) (ix2 (0 : Fin 1) j) = ((m ((c : Thread nD τ).loc main_arg8)) : S160.Idx → EReal) (ix1 j) := by
  have e : (V m c main_v22 : S1x160.Idx → EReal) = shapeCast S1x160 ((m ((c : Thread nD τ).loc main_arg8)) : S160.Idx → EReal) shapeCasts_S160_S1x160 := by
    dsimp only [Gen.V, Gen.hostOps0]; after_results; rfl
  rw [e]
  exact shapeCast_apply _ _ (ix2 (0 : Fin 1) j) (ix1 j) (by rw [Shape.rowMajor_val_one, Shape.rowMajor_val_two]; show j.val = 0 * 160 + j.val; omega)

/-- A per-channel vector made a `[1, 160]` row, at `(0, j)`, is the argument at `j`. -/
theorem V_v23_apply (c : Dev nD) (j : Fin 160) :
    (V m c main_v23 : S1x160.Idx → EReal) (ix2 (0 : Fin 1) j) = ((m ((c : Thread nD τ).loc main_arg9)) : S160.Idx → EReal) (ix1 j) := by
  have e : (V m c main_v23 : S1x160.Idx → EReal) = shapeCast S1x160 ((m ((c : Thread nD τ).loc main_arg9)) : S160.Idx → EReal) shapeCasts_S160_S1x160 := by
    dsimp only [Gen.V, Gen.hostOps0]; after_results; rfl
  rw [e]
  exact shapeCast_apply _ _ (ix2 (0 : Fin 1) j) (ix1 j) (by rw [Shape.rowMajor_val_one, Shape.rowMajor_val_two]; show j.val = 0 * 160 + j.val; omega)

/-- A per-channel vector made a `[1, 160]` row, at `(0, j)`, is the argument at `j`. -/
theorem V_v24_apply (c : Dev nD) (j : Fin 160) :
    (V m c main_v24 : S1x160.Idx → EReal) (ix2 (0 : Fin 1) j) = ((m ((c : Thread nD τ).loc main_arg10)) : S160.Idx → EReal) (ix1 j) := by
  have e : (V m c main_v24 : S1x160.Idx → EReal) = shapeCast S1x160 ((m ((c : Thread nD τ).loc main_arg10)) : S160.Idx → EReal) shapeCasts_S160_S1x160 := by
    dsimp only [Gen.V, Gen.hostOps0]; after_results; rfl
  rw [e]
  exact shapeCast_apply _ _ (ix2 (0 : Fin 1) j) (ix1 j) (by rw [Shape.rowMajor_val_one, Shape.rowMajor_val_two]; show j.val = 0 * 160 + j.val; omega)

/-- A per-channel vector made a `[1, 160]` row, at `(0, j)`, is the argument at `j`. -/
theorem V_v25_apply (c : Dev nD) (j : Fin 160) :
    (V m c main_v25 : S1x160.Idx → EReal) (ix2 (0 : Fin 1) j) = ((m ((c : Thread nD τ).loc main_arg11)) : S160.Idx → EReal) (ix1 j) := by
  have e : (V m c main_v25 : S1x160.Idx → EReal) = shapeCast S1x160 ((m ((c : Thread nD τ).loc main_arg11)) : S160.Idx → EReal) shapeCasts_S160_S1x160 := by
    dsimp only [Gen.V, Gen.hostOps0]; after_results; rfl
  rw [e]
  exact shapeCast_apply _ _ (ix2 (0 : Fin 1) j) (ix1 j) (by rw [Shape.rowMajor_val_one, Shape.rowMajor_val_two]; show j.val = 0 * 160 + j.val; omega)

/-- The bias made a `[1, 1]` array. -/
theorem V_v26_apply (c : Dev nD) :
    (V m c main_v26 : S1x1.Idx → EReal) (ix2 (0 : Fin 1) (0 : Fin 1)) = ((m ((c : Thread nD τ).loc main_arg13)) : S1.Idx → EReal) (ix1 (0 : Fin 1)) := by
  have e : (V m c main_v26 : S1x1.Idx → EReal) = shapeCast S1x1 ((m ((c : Thread nD τ).loc main_arg13)) : S1.Idx → EReal) shapeCasts_S1_S1x1 := by
    dsimp only [Gen.V, Gen.hostOps0]; after_results; rfl
  rw [e]
  exact shapeCast_apply _ _ (ix2 (0 : Fin 1) (0 : Fin 1)) (ix1 (0 : Fin 1)) (by rw [Shape.rowMajor_val_one, Shape.rowMajor_val_two]; rfl)

/-! ## The windows' blocks -/

/-- The printed index maps, decided over the 100 grid points: the row-blocked windows sit at block row `t`, the
    resident windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

theorem lt_N (t : Fin cfg0.N) : t.val < 100 := by
  exact Nat.lt_of_lt_of_eq t.isLt N_0

/-- The array row under row `r` of grid point `t`'s block. -/
def rowOf (t : Fin cfg0.N) (r : Fin 4000) : Fin 400000 := ⟨4000 * t.val + r.val, by have := lt_N t; have := r.isLt; omega⟩

/-- Row `r` of input window 0's block at point `t` is row `4000 t + r` of its array. -/
theorem iblk0_apply (c : Dev nD) (t : Fin cfg0.N) (r : Fin 4000) (k : Fin 128) :
    (iblk m c 0 t : Vec Ideal S4000x128 .f32) (ix2 r k) = (V m c main_arg1 : S400000x128.Idx → EReal) (ix2 (rowOf t r) k) := by
  have hi := idx_facts t
  have e0 : win0_0.index t (0 : Fin 2) = t.val := by tauto
  have e1 : win0_0.index t (1 : Fin 2) = 0 := by tauto
  unfold iblk
  rw [View.read_apply]
  show (V m c main_arg1 : S400000x128.Idx → EReal) (((cfg0.win 0).blk t).view.emb (ix2 r k)) = _
  refine congrArg (V m c main_arg1 : S400000x128.Idx → EReal) (funext fun a => Fin.ext ?_)
  match a with
  | ⟨0, _⟩ => show win0_0.index t (0 : Fin 2) * 4000 + 1 * r.val = 4000 * t.val + r.val; rw [e0]; omega
  | ⟨1, _⟩ => show win0_0.index t (1 : Fin 2) * 128 + 1 * k.val = k.val; rw [e1]; omega

/-- Row `r` of input window 1's block at point `t` is row `4000 t + r` of its array. -/
theorem iblk1_apply (c : Dev nD) (t : Fin cfg0.N) (r : Fin 4000) (k : Fin 32) :
    (iblk m c 1 t : Vec Ideal S4000x32 .f32) (ix2 r k) = (V m c main_arg3 : S400000x32.Idx → EReal) (ix2 (rowOf t r) k) := by
  have hi := idx_facts t
  have e0 : win0_1.index t (0 : Fin 2) = t.val := by tauto
  have e1 : win0_1.index t (1 : Fin 2) = 0 := by tauto
  unfold iblk
  rw [View.read_apply]
  show (V m c main_arg3 : S400000x32.Idx → EReal) (((cfg0.win 1).blk t).view.emb (ix2 r k)) = _
  refine congrArg (V m c main_arg3 : S400000x32.Idx → EReal) (funext fun a => Fin.ext ?_)
  match a with
  | ⟨0, _⟩ => show win0_1.index t (0 : Fin 2) * 4000 + 1 * r.val = 4000 * t.val + r.val; rw [e0]; omega
  | ⟨1, _⟩ => show win0_1.index t (1 : Fin 2) * 32 + 1 * k.val = k.val; rw [e1]; omega

/-- Row `r` of input window 2's block at point `t` is row `4000 t + r` of its array. -/
theorem iblk2_apply (c : Dev nD) (t : Fin cfg0.N) (r : Fin 4000) (k : Fin 128) :
    (iblk m c 2 t : Vec Ideal S4000x128 .bf16) (ix2 r k) = (V m c main_v8 : S400000x128.Idx → EReal) (ix2 (rowOf t r) k) := by
  have hi := idx_facts t
  have e0 : win0_2.index t (0 : Fin 2) = t.val := by tauto
  have e1 : win0_2.index t (1 : Fin 2) = 0 := by tauto
  unfold iblk
  rw [View.read_apply]
  show (V m c main_v8 : S400000x128.Idx → EReal) (((cfg0.win 2).blk t).view.emb (ix2 r k)) = _
  refine congrArg (V m c main_v8 : S400000x128.Idx → EReal) (funext fun a => Fin.ext ?_)
  match a with
  | ⟨0, _⟩ => show win0_2.index t (0 : Fin 2) * 4000 + 1 * r.val = 4000 * t.val + r.val; rw [e0]; omega
  | ⟨1, _⟩ => show win0_2.index t (1 : Fin 2) * 128 + 1 * k.val = k.val; rw [e1]; omega

/-- Row `r` of input window 3's block at point `t` is row `4000 t + r` of its array. -/
theorem iblk3_apply (c : Dev nD) (t : Fin cfg0.N) (r : Fin 4000) (k : Fin 32) :
    (iblk m c 3 t : Vec Ideal S4000x32 .bf16) (ix2 r k) = (V m c main_v15 : S400000x32.Idx → EReal) (ix2 (rowOf t r) k) := by
  have hi := idx_facts t
  have e0 : win0_3.index t (0 : Fin 2) = t.val := by tauto
  have e1 : win0_3.index t (1 : Fin 2) = 0 := by tauto
  unfold iblk
  rw [View.read_apply]
  show (V m c main_v15 : S400000x32.Idx → EReal) (((cfg0.win 3).blk t).view.emb (ix2 r k)) = _
  refine congrArg (V m c main_v15 : S400000x32.Idx → EReal) (funext fun a => Fin.ext ?_)
  match a with
  | ⟨0, _⟩ => show win0_3.index t (0 : Fin 2) * 4000 + 1 * r.val = 4000 * t.val + r.val; rw [e0]; omega
  | ⟨1, _⟩ => show win0_3.index t (1 : Fin 2) * 32 + 1 * k.val = k.val; rw [e1]; omega

/-- Resident window 4's block at every point is its whole array. -/
theorem iblk4_apply (c : Dev nD) (t : Fin cfg0.N) (p : Fin 320) (q : Fin 160) :
    (iblk m c 4 t : Vec Ideal S320x160 .bf16) (ix2 p q) = (V m c main_v17 : S320x160.Idx → EReal) (ix2 p q) := by
  have hi := idx_facts t
  have e0 : win0_4.index t (0 : Fin 2) = 0 := by tauto
  have e1 : win0_4.index t (1 : Fin 2) = 0 := by tauto
  unfold iblk
  rw [View.read_apply]
  show (V m c main_v17 : S320x160.Idx → EReal) (((cfg0.win 4).blk t).view.emb (ix2 p q)) = _
  refine congrArg (V m c main_v17 : S320x160.Idx → EReal) (funext fun a => Fin.ext ?_)
  match a with
  | ⟨0, _⟩ => show win0_4.index t (0 : Fin 2) * 320 + 1 * p.val = p.val; rw [e0]; omega
  | ⟨1, _⟩ => show win0_4.index t (1 : Fin 2) * 160 + 1 * q.val = q.val; rw [e1]; omega

/-- Resident window 5's block at every point is its whole array. -/
theorem iblk5_apply (c : Dev nD) (t : Fin cfg0.N) (p : Fin 160) (q : Fin 160) :
    (iblk m c 5 t : Vec Ideal S160x160 .bf16) (ix2 p q) = (V m c main_v19 : S160x160.Idx → EReal) (ix2 p q) := by
  have hi := idx_facts t
  have e0 : win0_5.index t (0 : Fin 2) = 0 := by tauto
  have e1 : win0_5.index t (1 : Fin 2) = 0 := by tauto
  unfold iblk
  rw [View.read_apply]
  show (V m c main_v19 : S160x160.Idx → EReal) (((cfg0.win 5).blk t).view.emb (ix2 p q)) = _
  refine congrArg (V m c main_v19 : S160x160.Idx → EReal) (funext fun a => Fin.ext ?_)
  match a with
  | ⟨0, _⟩ => show win0_5.index t (0 : Fin 2) * 160 + 1 * p.val = p.val; rw [e0]; omega
  | ⟨1, _⟩ => show win0_5.index t (1 : Fin 2) * 160 + 1 * q.val = q.val; rw [e1]; omega

/-- Resident window 6's block at every point is its whole array. -/
theorem iblk6_apply (c : Dev nD) (t : Fin cfg0.N) (p : Fin 320) (q : Fin 160) :
    (iblk m c 6 t : Vec Ideal S320x160 .bf16) (ix2 p q) = (V m c main_v21 : S320x160.Idx → EReal) (ix2 p q) := by
  have hi := idx_facts t
  have e0 : win0_6.index t (0 : Fin 2) = 0 := by tauto
  have e1 : win0_6.index t (1 : Fin 2) = 0 := by tauto
  unfold iblk
  rw [View.read_apply]
  show (V m c main_v21 : S320x160.Idx → EReal) (((cfg0.win 6).blk t).view.emb (ix2 p q)) = _
  refine congrArg (V m c main_v21 : S320x160.Idx → EReal) (funext fun a => Fin.ext ?_)
  match a with
  | ⟨0, _⟩ => show win0_6.index t (0 : Fin 2) * 320 + 1 * p.val = p.val; rw [e0]; omega
  | ⟨1, _⟩ => show win0_6.index t (1 : Fin 2) * 160 + 1 * q.val = q.val; rw [e1]; omega

/-- Resident window 7's block at every point is its whole array. -/
theorem iblk7_apply (c : Dev nD) (t : Fin cfg0.N) (p : Fin 1) (q : Fin 160) :
    (iblk m c 7 t : Vec Ideal S1x160 .f32) (ix2 p q) = (V m c main_v22 : S1x160.Idx → EReal) (ix2 p q) := by
  have hi := idx_facts t
  have e0 : win0_7.index t (0 : Fin 2) = 0 := by tauto
  have e1 : win0_7.index t (1 : Fin 2) = 0 := by tauto
  unfold iblk
  rw [View.read_apply]
  show (V m c main_v22 : S1x160.Idx → EReal) (((cfg0.win 7).blk t).view.emb (ix2 p q)) = _
  refine congrArg (V m c main_v22 : S1x160.Idx → EReal) (funext fun a => Fin.ext ?_)
  match a with
  | ⟨0, _⟩ => show win0_7.index t (0 : Fin 2) * 1 + 1 * p.val = p.val; rw [e0]; omega
  | ⟨1, _⟩ => show win0_7.index t (1 : Fin 2) * 160 + 1 * q.val = q.val; rw [e1]; omega

/-- Resident window 8's block at every point is its whole array. -/
theorem iblk8_apply (c : Dev nD) (t : Fin cfg0.N) (p : Fin 1) (q : Fin 160) :
    (iblk m c 8 t : Vec Ideal S1x160 .f32) (ix2 p q) = (V m c main_v23 : S1x160.Idx → EReal) (ix2 p q) := by
  have hi := idx_facts t
  have e0 : win0_8.index t (0 : Fin 2) = 0 := by tauto
  have e1 : win0_8.index t (1 : Fin 2) = 0 := by tauto
  unfold iblk
  rw [View.read_apply]
  show (V m c main_v23 : S1x160.Idx → EReal) (((cfg0.win 8).blk t).view.emb (ix2 p q)) = _
  refine congrArg (V m c main_v23 : S1x160.Idx → EReal) (funext fun a => Fin.ext ?_)
  match a with
  | ⟨0, _⟩ => show win0_8.index t (0 : Fin 2) * 1 + 1 * p.val = p.val; rw [e0]; omega
  | ⟨1, _⟩ => show win0_8.index t (1 : Fin 2) * 160 + 1 * q.val = q.val; rw [e1]; omega

/-- Resident window 9's block at every point is its whole array. -/
theorem iblk9_apply (c : Dev nD) (t : Fin cfg0.N) (p : Fin 1) (q : Fin 160) :
    (iblk m c 9 t : Vec Ideal S1x160 .f32) (ix2 p q) = (V m c main_v24 : S1x160.Idx → EReal) (ix2 p q) := by
  have hi := idx_facts t
  have e0 : win0_9.index t (0 : Fin 2) = 0 := by tauto
  have e1 : win0_9.index t (1 : Fin 2) = 0 := by tauto
  unfold iblk
  rw [View.read_apply]
  show (V m c main_v24 : S1x160.Idx → EReal) (((cfg0.win 9).blk t).view.emb (ix2 p q)) = _
  refine congrArg (V m c main_v24 : S1x160.Idx → EReal) (funext fun a => Fin.ext ?_)
  match a with
  | ⟨0, _⟩ => show win0_9.index t (0 : Fin 2) * 1 + 1 * p.val = p.val; rw [e0]; omega
  | ⟨1, _⟩ => show win0_9.index t (1 : Fin 2) * 160 + 1 * q.val = q.val; rw [e1]; omega

/-- Resident window 10's block at every point is its whole array. -/
theorem iblk10_apply (c : Dev nD) (t : Fin cfg0.N) (p : Fin 1) (q : Fin 160) :
    (iblk m c 10 t : Vec Ideal S1x160 .f32) (ix2 p q) = (V m c main_v25 : S1x160.Idx → EReal) (ix2 p q) := by
  have hi := idx_facts t
  have e0 : win0_10.index t (0 : Fin 2) = 0 := by tauto
  have e1 : win0_10.index t (1 : Fin 2) = 0 := by tauto
  unfold iblk
  rw [View.read_apply]
  show (V m c main_v25 : S1x160.Idx → EReal) (((cfg0.win 10).blk t).view.emb (ix2 p q)) = _
  refine congrArg (V m c main_v25 : S1x160.Idx → EReal) (funext fun a => Fin.ext ?_)
  match a with
  | ⟨0, _⟩ => show win0_10.index t (0 : Fin 2) * 1 + 1 * p.val = p.val; rw [e0]; omega
  | ⟨1, _⟩ => show win0_10.index t (1 : Fin 2) * 160 + 1 * q.val = q.val; rw [e1]; omega

/-- Resident window 11's block at every point is its whole array. -/
theorem iblk11_apply (c : Dev nD) (t : Fin cfg0.N) (p : Fin 1) (q : Fin 160) :
    (iblk m c 11 t : Vec Ideal S1x160 .f32) (ix2 p q) = (V m c main_arg12 : S1x160.Idx → EReal) (ix2 p q) := by
  have hi := idx_facts t
  have e0 : win0_11.index t (0 : Fin 2) = 0 := by tauto
  have e1 : win0_11.index t (1 : Fin 2) = 0 := by tauto
  unfold iblk
  rw [View.read_apply]
  show (V m c main_arg12 : S1x160.Idx → EReal) (((cfg0.win 11).blk t).view.emb (ix2 p q)) = _
  refine congrArg (V m c main_arg12 : S1x160.Idx → EReal) (funext fun a => Fin.ext ?_)
  match a with
  | ⟨0, _⟩ => show win0_11.index t (0 : Fin 2) * 1 + 1 * p.val = p.val; rw [e0]; omega
  | ⟨1, _⟩ => show win0_11.index t (1 : Fin 2) * 160 + 1 * q.val = q.val; rw [e1]; omega

/-- Resident window 12's block at every point is its whole array. -/
theorem iblk12_apply (c : Dev nD) (t : Fin cfg0.N) (p : Fin 1) (q : Fin 1) :
    (iblk m c 12 t : Vec Ideal S1x1 .f32) (ix2 p q) = (V m c main_v26 : S1x1.Idx → EReal) (ix2 p q) := by
  have hi := idx_facts t
  have e0 : win0_12.index t (0 : Fin 2) = 0 := by tauto
  have e1 : win0_12.index t (1 : Fin 2) = 0 := by tauto
  unfold iblk
  rw [View.read_apply]
  show (V m c main_v26 : S1x1.Idx → EReal) (((cfg0.win 12).blk t).view.emb (ix2 p q)) = _
  refine congrArg (V m c main_v26 : S1x1.Idx → EReal) (funext fun a => Fin.ext ?_)
  match a with
  | ⟨0, _⟩ => show win0_12.index t (0 : Fin 2) * 1 + 1 * p.val = p.val; rw [e0]; omega
  | ⟨1, _⟩ => show win0_12.index t (1 : Fin 2) * 1 + 1 * q.val = q.val; rw [e1]; omega

/-! ## One point's block of the result -/

/-- If the body's blocks are the rows `4000 t + r` of feature arrays `P Q A Z` and the (transposed) weight arrays,
    row `r` of what it stores is row `4000 t + r` of `G`. -/
theorem G_block (P : (⟨2, ![400000, 128]⟩ : Shape).Idx → EReal) (Q : (⟨2, ![400000, 32]⟩ : Shape).Idx → EReal)
    (A : (⟨2, ![400000, 128]⟩ : Shape).Idx → EReal) (Z : (⟨2, ![400000, 32]⟩ : Shape).Idx → EReal)
    (W1 : (⟨2, ![160, 320]⟩ : Shape).Idx → EReal) (W2 : (⟨2, ![160, 160]⟩ : Shape).Idx → EReal)
    (WT : (⟨2, ![160, 320]⟩ : Shape).Idx → EReal)
    (g1w g1b g2w g2b : (⟨1, ![160]⟩ : Shape).Idx → EReal) (wh : (⟨2, ![1, 160]⟩ : Shape).Idx → EReal)
    (bh : (⟨1, ![1]⟩ : Shape).Idx → EReal)
    (x0 : Vec Ideal S4000x128 .f32) (x1 : Vec Ideal S4000x32 .f32) (x2 : Vec Ideal S4000x128 .bf16)
    (x3 : Vec Ideal S4000x32 .bf16) (x4 : Vec Ideal S320x160 .bf16) (x5 : Vec Ideal S160x160 .bf16)
    (x6 : Vec Ideal S320x160 .bf16) (x7 x8 x9 x10 x11 : Vec Ideal S1x160 .f32) (x12 : Vec Ideal S1x1 .f32)
    (R : Fin 4000 → Fin 400000)
    (h0 : ∀ (r : Fin 4000) (k : Fin 128), x0 (ix2 r k) = P (ix2 (R r) k))
    (h1 : ∀ (r : Fin 4000) (k : Fin 32), x1 (ix2 r k) = Q (ix2 (R r) k))
    (h2 : ∀ (r : Fin 4000) (k : Fin 128), x2 (ix2 r k) = A (ix2 (R r) k))
    (h3 : ∀ (r : Fin 4000) (k : Fin 32), x3 (ix2 r k) = Z (ix2 (R r) k))
    (h4 : ∀ (k : Fin 320) (j : Fin 160), x4 (ix2 k j) = W1 (ix2 j k))
    (h5 : ∀ (k : Fin 160) (j : Fin 160), x5 (ix2 k j) = W2 (ix2 j k))
    (h6 : ∀ (k : Fin 320) (j : Fin 160), x6 (ix2 k j) = WT (ix2 j k))
    (h7 : ∀ j : Fin 160, x7 (ix2 (0 : Fin 1) j) = g1w (ix1 j))
    (h8 : ∀ j : Fin 160, x8 (ix2 (0 : Fin 1) j) = g1b (ix1 j))
    (h9 : ∀ j : Fin 160, x9 (ix2 (0 : Fin 1) j) = g2w (ix1 j))
    (h10 : ∀ j : Fin 160, x10 (ix2 (0 : Fin 1) j) = g2b (ix1 j))
    (h11 : ∀ j : Fin 160, x11 (ix2 (0 : Fin 1) j) = wh (ix2 (0 : Fin 1) j))
    (h12 : x12 (ix2 (0 : Fin 1) (0 : Fin 1)) = bh (ix1 (0 : Fin 1)))
    (r : Fin 4000) (u : Fin 1) :
    out0_13 x0 x1 x2 x3 x4 x5 x6 x7 x8 x9 x10 x11 x12 (ix2 r u)
      = G P Q A Z W1 W2 WT g1w g1b g2w g2b wh bh (ix2 (R r) (0 : Fin 1)) := by
  rw [Payload.out_apply]
  simp only [h0, h1, h2, h3, h4, h5, h6, h7, h8, h9, h10, h11, h12]
  rfl

/-- The result array as the function `G` of the arguments. -/
abbrev Gk (c : Dev nD) : S400000x1.Idx → EReal :=
  G (m ((c : Thread nD τ).loc main_arg1)) (m ((c : Thread nD τ).loc main_arg3)) (gatherA (m ((c : Thread nD τ).loc main_arg0)) (m ((c : Thread nD τ).loc main_arg4))) (gatherZ (m ((c : Thread nD τ).loc main_arg2)) (m ((c : Thread nD τ).loc main_arg4)))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Row `r` of what point `t` stores is row `4000 t + r` of `G` of the arguments. -/
theorem point_eq (c : Dev nD) (t : Fin cfg0.N) (r : Fin 4000) (u : Fin 1) :
    (out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) : Vec Ideal S4000x1 .f32) (ix2 r u)
      = Gk m c (ix2 (rowOf t r) (0 : Fin 1)) := by
  refine G_block _ _ _ _ _ _ _ _ _ _ _ _ _ _ _ _ _ _ _ _ _ _ _ _ _ _ (rowOf t) ?_ ?_ ?_ ?_ ?_ ?_ ?_ ?_ ?_ ?_ ?_ ?_ ?_ r u
  · intro r k; rw [iblk0_apply m c t r k, V_main_arg1]
  · intro r k; rw [iblk1_apply m c t r k, V_main_arg3]
  · intro r k; rw [iblk2_apply m c t r k, V_v8]
  · intro r k; rw [iblk3_apply m c t r k, V_v15]
  · intro k j; rw [iblk4_apply m c t k j, V_v17_apply]
  · intro k j; rw [iblk5_apply m c t k j, V_v19_apply]
  · intro k j; rw [iblk6_apply m c t k j, V_v21_apply]
  · intro j; rw [iblk7_apply m c t 0 j, V_v22_apply]
  · intro j; rw [iblk8_apply m c t 0 j, V_v23_apply]
  · intro j; rw [iblk9_apply m c t 0 j, V_v24_apply]
  · intro j; rw [iblk10_apply m c t 0 j, V_v25_apply]
  · intro j; rw [iblk11_apply m c t 0 j, V_main_arg12]
  · rw [iblk12_apply m c t 0 0, V_v26_apply]

/-! ## The write-backs and the cover -/

/-- What point `t` writes back is block `t` of `G` of the arguments. -/
theorem flushed_eq (c : Dev nD) (t : Fin cfg0.N) :
    (dats m 0 c).flushed 13 t = ((cfg0.win 13).blk t).view.read (Elt Ideal) (Gk m c) := by
  have hi := idx_facts t
  have e0 : win0_13.index t (0 : Fin 2) = t.val := by tauto
  have e1 : win0_13.index t (1 : Fin 2) = 0 := by tauto
  rw [Value.flushed13]
  funext y
  rw [View.read_apply]
  show (out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) : Vec Ideal S4000x1 .f32) y
      = Gk m c (((cfg0.win 13).blk t).view.emb y)
  obtain ⟨r, u, rfl⟩ : ∃ (r : Fin 4000) (u : Fin 1), y = ix2 r u := ⟨y 0, y 1, eq_ix2 y⟩
  rw [point_eq m c t r u]
  refine congrArg (Gk m c) (funext fun a => Fin.ext ?_)
  have hu : u.val = 0 := by omega
  match a with
  | ⟨0, _⟩ => show 4000 * t.val + r.val = win0_13.index t (0 : Fin 2) * 4000 + 1 * r.val; rw [e0]; omega
  | ⟨1, _⟩ => show 0 = win0_13.index t (1 : Fin 2) * 1 + 1 * u.val; rw [e1, hu]

/-- An index of the result is in point `t`'s block iff each coordinate is in the block's range on its axis. -/
theorem mem_blk (t : Fin cfg0.N) (i : S400000x1.Idx) :
    i ∈ ((cfg0.win 13).blk t).view.set ↔ ∀ a : Fin 2, win0_13.index t a * S4000x1.size a ≤ (i a).val ∧ (i a).val < win0_13.index t a * S4000x1.size a + S4000x1.size a := by
  show i ∈ ((View.whole main_v27).slice (win0_13.rect t)).set ↔ _
  rw [View.set_slice_whole, Rect.mem_set_unit]
  exact Iff.rfl

/-- Row `n` of the result lies in the block of point `n / 4000`: the 100 blocks tile the array. -/
theorem cover (i : S400000x1.Idx) : ∃ t : Fin cfg0.N, (cfg0.win 13).flush t = true ∧ i ∈ ((cfg0.win 13).blk t).view.set := by
  have hi0 : (i 0).val < 400000 := (i 0).isLt
  have hi1 : (i 1).val < 1 := (i 1).isLt
  have hN : cfg0.N = 100 := N_0
  have hlt : (i 0).val / 4000 < cfg0.N := by rw [hN]; omega
  have hf := idx_facts ⟨(i 0).val / 4000, hlt⟩
  have e0 : win0_13.index ⟨(i 0).val / 4000, hlt⟩ (0 : Fin 2) = (i 0).val / 4000 := by tauto
  have e1 : win0_13.index ⟨(i 0).val / 4000, hlt⟩ (1 : Fin 2) = 0 := by tauto
  refine ⟨⟨(i 0).val / 4000, hlt⟩, flush0_13 _, ?_⟩
  rw [mem_blk]
  intro a
  match a with
  | ⟨0, _⟩ =>
    show win0_13.index ⟨(i 0).val / 4000, hlt⟩ (0 : Fin 2) * 4000 ≤ (i 0).val ∧ (i 0).val < win0_13.index ⟨(i 0).val / 4000, hlt⟩ (0 : Fin 2) * 4000 + 4000
    rw [e0]; omega
  | ⟨1, _⟩ =>
    show win0_13.index ⟨(i 0).val / 4000, hlt⟩ (1 : Fin 2) * 1 ≤ (i 1).val ∧ (i 1).val < win0_13.index ⟨(i 0).val / 4000, hlt⟩ (1 : Fin 2) * 1 + 1
    rw [e1]; omega

/-- So the result array ends holding `G` of the arguments. -/
theorem final (c : Dev nD) : (dats m 0 c).arrAt 13 cfg0.N = Gk m c :=
  (dats m 0 c).arrAt_eq_of_cover 13 (Gk m c) (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v27) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.RefValue.lean ====
/-
  The reference's result array, read one operation at a time, is the network of `Spec.lean` applied row by
  row to the arguments and to the two gathered tables.
-/
import proofs.«128025_j45535243272619_2_alg».proof.Proof.Gen.ReferenceIdeal.Read
import proofs.«128025_j45535243272619_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.HeadSpec

/-- The joined array at row n, column k is the joined row of the four pieces. -/
private theorem cat_at (x1 A : (⟨S400000x128, .f32⟩ : BufTy).Contents (Elt Ideal))
    (x3 Z : (⟨S400000x32, .f32⟩ : BufTy).Contents (Elt Ideal)) (n : Fin 400000) (k : Fin 320) :
    concatenate S400000x320 1 [⟨S400000x128, x1⟩, ⟨S400000x32, x3⟩, ⟨S400000x128, A⟩, ⟨S400000x32, Z⟩]
        Cert.ReferenceIdeal.Gen.concatenates_S400000x128_S400000x32_S400000x128_S400000x32_S400000x320_d1 (ix2 n k)
      = catRow (fun k => x1 (ix2 n k)) (fun k => x3 (ix2 n k)) (fun k => A (ix2 n k)) (fun k => Z (ix2 n k)) k := by
  have hk := k.isLt
  unfold catRow
  split
  · next h1 =>
    refine concatenate_apply_piece (1 : Fin 2)
      [⟨S400000x128, x1⟩, ⟨S400000x32, x3⟩, ⟨S400000x128, A⟩, ⟨S400000x32, Z⟩] _ (ix2 n k) 0 ?_ S400000x128 x1 rfl rfl 0 rfl
      (ix2 n ⟨k.val, h1⟩) (fun b hb => ?_) ?_
    · simp
    · match b with
      | ⟨0, _⟩ => rfl
      | ⟨1, _⟩ => exact (hb rfl).elim
    · exact Nat.zero_add _
  · next h1 =>
    split
    · next h2 =>
      exact concatenate_apply_piece (1 : Fin 2) _ _ (ix2 n k) 1 (by simp) S400000x32 x3 rfl rfl 128 rfl
        (ix2 n ⟨k.val - 128, by omega⟩) (fun b hb => by
          match b with
          | ⟨0, _⟩ => rfl
          | ⟨1, _⟩ => exact (hb rfl).elim) (by show 128 + (k.val - 128) = k.val; omega)
    · next h2 =>
      split
      · next h3 =>
        exact concatenate_apply_piece (1 : Fin 2) _ _ (ix2 n k) 2 (by simp) S400000x128 A rfl rfl 160 rfl
          (ix2 n ⟨k.val - 160, by omega⟩) (fun b hb => by
            match b with
            | ⟨0, _⟩ => rfl
            | ⟨1, _⟩ => exact (hb rfl).elim) (by show 160 + (k.val - 160) = k.val; omega)
      · next h3 =>
        exact concatenate_apply_piece (1 : Fin 2) _ _ (ix2 n k) 3 (by simp) S400000x32 Z rfl rfl 288 rfl
          (ix2 n ⟨k.val - 288, by omega⟩) (fun b hb => by
            match b with
            | ⟨0, _⟩ => rfl
            | ⟨1, _⟩ => exact (hb rfl).elim) (by show 288 + (k.val - 288) = k.val; omega)

section Stages

variable (x0 : (⟨S40000x128, .f32⟩ : BufTy).Contents (Elt Ideal)) (x1 : (⟨S400000x128, .f32⟩ : BufTy).Contents (Elt Ideal))
    (x2 : (⟨S40000x32, .f32⟩ : BufTy).Contents (Elt Ideal)) (x3 : (⟨S400000x32, .f32⟩ : BufTy).Contents (Elt Ideal))
    (x4 : (⟨S400000, .i32⟩ : BufTy).Contents (Elt Ideal)) (x5 : (⟨S160x320, .f32⟩ : BufTy).Contents (Elt Ideal))
    (x6 : (⟨S160x160, .f32⟩ : BufTy).Contents (Elt Ideal)) (x7 : (⟨S160x320, .f32⟩ : BufTy).Contents (Elt Ideal))
    (x8 x9 x10 x11 : (⟨S160, .f32⟩ : BufTy).Contents (Elt Ideal)) (x12 : (⟨S1x160, .f32⟩ : BufTy).Contents (Elt Ideal))
    (x13 : (⟨S1, .f32⟩ : BufTy).Contents (Elt Ideal))

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-- The 320 features of row `n`: its own two pieces and the two gathered ones, side by side. -/
private def X (n : Fin 400000) : Fin 320 → EReal :=
  catRow (fun k => x1 (ix2 n k)) (fun k => x3 (ix2 n k)) (fun k => val_main_v6 (F := Ideal) x0 x4 (ix2 n k))
    (fun k => val_main_v13 (F := Ideal) x2 x4 (ix2 n k))

/-- The first linear layer on row `n`. -/
private def H1 (n : Fin 400000) : Fin 160 → EReal := lin (X x0 x1 x2 x3 x4 n) (fun j k => x5 (ix2 j k))

/-- The joined array at row `n`. -/
private theorem v14_at (n : Fin 400000) (k : Fin 320) : val_main_v14 (F := Ideal) x0 x1 x2 x3 x4 (ix2 n k) = X x0 x1 x2 x3 x4 n k := by
  unfold val_main_v14 X
  exact cat_at x1 (val_main_v6 (F := Ideal) x0 x4) x3 (val_main_v13 (F := Ideal) x2 x4) n k

/-- The first linear layer. -/
private theorem v15_at (n : Fin 400000) (j : Fin 160) : val_main_v15 (F := Ideal) x0 x1 x2 x3 x4 x5 (ix2 n j) = H1 x0 x1 x2 x3 x4 x5 n j := by
  rw [val_main_v15_apply]
  unfold H1 lin
  refine Finset.sum_congr rfl fun k _ => ?_
  have e1 : lidx_main_v15 (ix2 n j) k = ix2 n k := by idx2
  have e2 : ridx_main_v15 (ix2 n j) k = ix2 j k := by idx2
  rw [e1, e2, v14_at]

/-! ### The normalisation of the first layer -/

/-- The row sum. -/
private theorem v16_at (n : Fin 400000) : val_main_v16 (F := Ideal) x0 x1 x2 x3 x4 x5 (ix1 n) = ∑ k, H1 x0 x1 x2 x3 x4 x5 n k := by
  rw [val_main_v16_apply, val_main_cst_apply]
  refine (congrArg₂ (· + ·) Ideal.ofBits_zero_f32 (Finset.sum_congr rfl fun k _ => ?_)).trans (zero_add _)
  have e : idx_main_v16 (ix1 n) k = ix2 n k := by idx2
  rw [e, v15_at]

/-- The row mean, as a column. -/
private theorem v19_at (n : Fin 400000) : val_main_v19 (F := Ideal) x0 x1 x2 x3 x4 x5 (ix2 n (0 : Fin 1)) = rowMean (H1 x0 x1 x2 x3 x4 x5 n) := by
  rw [val_main_v19_apply, val_main_v17_apply, val_main_v18_apply, val_main_cst_3_apply]
  have e : idx_main_v17 (ix2 n (0 : Fin 1)) = ix1 n := by idx1
  rw [e, v16_at]
  rfl

/-- The row mean, spread along the row. -/
private theorem v20_at (n : Fin 400000) (j : Fin 160) : val_main_v20 (F := Ideal) x0 x1 x2 x3 x4 x5 (ix2 n j) = rowMean (H1 x0 x1 x2 x3 x4 x5 n) := by
  rw [val_main_v20_apply]
  have e : idx_main_v20 (ix2 n j) = ix2 n (0 : Fin 1) := by idx2
  rw [e, v19_at]

/-- The deviation from the mean. -/
private theorem v21_at (n : Fin 400000) (j : Fin 160) :
    val_main_v21 (F := Ideal) x0 x1 x2 x3 x4 x5 (ix2 n j) = H1 x0 x1 x2 x3 x4 x5 n j - rowMean (H1 x0 x1 x2 x3 x4 x5 n) := by
  rw [val_main_v21_apply, v15_at, v20_at]
  rfl

/-- The squared deviation. -/
private theorem v22_at (n : Fin 400000) (j : Fin 160) :
    val_main_v22 (F := Ideal) x0 x1 x2 x3 x4 x5 (ix2 n j)
      = (H1 x0 x1 x2 x3 x4 x5 n j - rowMean (H1 x0 x1 x2 x3 x4 x5 n)) * (H1 x0 x1 x2 x3 x4 x5 n j - rowMean (H1 x0 x1 x2 x3 x4 x5 n)) := by
  rw [val_main_v22_apply, v21_at]
  rfl

/-- The row sum of the squared deviations. -/
private theorem v23_at (n : Fin 400000) :
    val_main_v23 (F := Ideal) x0 x1 x2 x3 x4 x5 (ix1 n)
      = ∑ k, (H1 x0 x1 x2 x3 x4 x5 n k - rowMean (H1 x0 x1 x2 x3 x4 x5 n)) * (H1 x0 x1 x2 x3 x4 x5 n k - rowMean (H1 x0 x1 x2 x3 x4 x5 n)) := by
  rw [val_main_v23_apply, val_main_cst_4_apply]
  refine (congrArg₂ (· + ·) Ideal.ofBits_zero_f32 (Finset.sum_congr rfl fun k _ => ?_)).trans (zero_add _)
  have e : idx_main_v23 (ix1 n) k = ix2 n k := by idx2
  rw [e, v22_at]

/-- The row variance, as a column. -/
private theorem v26_at (n : Fin 400000) : val_main_v26 (F := Ideal) x0 x1 x2 x3 x4 x5 (ix2 n (0 : Fin 1)) = rowVar (H1 x0 x1 x2 x3 x4 x5 n) := by
  rw [val_main_v26_apply, val_main_v24_apply, val_main_v25_apply, val_main_cst_5_apply]
  have e : idx_main_v24 (ix2 n (0 : Fin 1)) = ix1 n := by idx1
  rw [e, v23_at]
  rfl

/-- The row mean spread along the row, a second time. -/
private theorem v27_at (n : Fin 400000) (j : Fin 160) : val_main_v27 (F := Ideal) x0 x1 x2 x3 x4 x5 (ix2 n j) = rowMean (H1 x0 x1 x2 x3 x4 x5 n) := by
  rw [val_main_v27_apply]
  have e : idx_main_v27 (ix2 n j) = ix2 n (0 : Fin 1) := by idx2
  rw [e, v19_at]

/-- The deviation from the mean, a second time. -/
private theorem v28_at (n : Fin 400000) (j : Fin 160) :
    val_main_v28 (F := Ideal) x0 x1 x2 x3 x4 x5 (ix2 n j) = H1 x0 x1 x2 x3 x4 x5 n j - rowMean (H1 x0 x1 x2 x3 x4 x5 n) := by
  rw [val_main_v28_apply, v15_at, v27_at]
  rfl

/-- The reciprocal square root of the offset variance, as a column. -/
private theorem v31_at (n : Fin 400000) :
    val_main_v31 (F := Ideal) x0 x1 x2 x3 x4 x5 (ix2 n (0 : Fin 1)) = Ideal.rsqrt (rowVar (H1 x0 x1 x2 x3 x4 x5 n) + cEps) := by
  rw [val_main_v31_apply, val_main_v30_apply, v26_at, val_main_v29_apply, val_main_cst_6_apply]
  rfl

/-- The same, spread along the row. -/
private theorem v32_at (n : Fin 400000) (j : Fin 160) :
    val_main_v32 (F := Ideal) x0 x1 x2 x3 x4 x5 (ix2 n j) = Ideal.rsqrt (rowVar (H1 x0 x1 x2 x3 x4 x5 n) + cEps) := by
  rw [val_main_v32_apply]
  have e : idx_main_v32 (ix2 n j) = ix2 n (0 : Fin 1) := by idx2
  rw [e, v31_at]

/-- The normalised deviation. -/
private theorem v33_at (n : Fin 400000) (j : Fin 160) : val_main_v33 (F := Ideal) x0 x1 x2 x3 x4 x5 (ix2 n j) = rowCore (H1 x0 x1 x2 x3 x4 x5 n) j := by
  rw [val_main_v33_apply, v28_at, v32_at]
  rfl

/-- The per-channel scale, spread over the rows. -/
private theorem v35_at (n : Fin 400000) (j : Fin 160) : val_main_v35 (F := Ideal) x8 (ix2 n j) = x8 (ix1 j) := by
  rw [val_main_v35_apply, val_main_v34_apply]
  exact congrArg x8 (by idx1)

/-- The per-channel shift, spread over the rows. -/
private theorem v38_at (n : Fin 400000) (j : Fin 160) : val_main_v38 (F := Ideal) x9 (ix2 n j) = x9 (ix1 j) := by
  rw [val_main_v38_apply, val_main_v37_apply]
  exact congrArg x9 (by idx1)

/-- The normalised row. -/
private theorem v39_at (n : Fin 400000) (j : Fin 160) :
    val_main_v39 (F := Ideal) x0 x1 x2 x3 x4 x5 x8 x9 (ix2 n j)
      = rowNorm (H1 x0 x1 x2 x3 x4 x5 n) (fun j => x8 (ix1 j)) (fun j => x9 (ix1 j)) j := by
  rw [val_main_v39_apply, val_main_v36_apply, v33_at, v35_at, v38_at]
  rfl

/-- The first layer's activation on row `n`. -/
private def A1 (n : Fin 400000) : Fin 160 → EReal :=
  fun j => max (rowNorm (H1 x0 x1 x2 x3 x4 x5 n) (fun j => x8 (ix1 j)) (fun j => x9 (ix1 j)) j) 0

/-- The second linear layer on row `n`. -/
private def H2 (n : Fin 400000) : Fin 160 → EReal := lin (A1 x0 x1 x2 x3 x4 x5 x8 x9 n) (fun j k => x6 (ix2 j k))

/-- The first activation. -/
private theorem v40_at (n : Fin 400000) (j : Fin 160) : val_main_v40 (F := Ideal) x0 x1 x2 x3 x4 x5 x8 x9 (ix2 n j) = A1 x0 x1 x2 x3 x4 x5 x8 x9 n j := by
  rw [val_main_v40_apply, v39_at, val_main_call0_v0_apply, val_main_call0_cst_apply]
  show max _ (Ideal.ofBits .f32 0x00000000#32) = _
  rw [Ideal.ofBits_zero_f32]
  rfl

/-- The second linear layer. -/
private theorem v41_at (n : Fin 400000) (j : Fin 160) : val_main_v41 (F := Ideal) x0 x1 x2 x3 x4 x5 x6 x8 x9 (ix2 n j) = H2 x0 x1 x2 x3 x4 x5 x6 x8 x9 n j := by
  rw [val_main_v41_apply]
  unfold H2 lin
  refine Finset.sum_congr rfl fun k _ => ?_
  have e1 : lidx_main_v41 (ix2 n j) k = ix2 n k := by idx2
  have e2 : ridx_main_v41 (ix2 n j) k = ix2 j k := by idx2
  rw [e1, e2, v40_at]

/-! ### The normalisation of the second layer -/

/-- The row sum. -/
private theorem v42_at (n : Fin 400000) : val_main_v42 (F := Ideal) x0 x1 x2 x3 x4 x5 x6 x8 x9 (ix1 n) = ∑ k, H2 x0 x1 x2 x3 x4 x5 x6 x8 x9 n k := by
  rw [val_main_v42_apply, val_main_cst_7_apply]
  refine (congrArg₂ (· + ·) Ideal.ofBits_zero_f32 (Finset.sum_congr rfl fun k _ => ?_)).trans (zero_add _)
  have e : idx_main_v42 (ix1 n) k = ix2 n k := by idx2
  rw [e, v41_at]

/-- The row mean, as a column. -/
private theorem v45_at (n : Fin 400000) : val_main_v45 (F := Ideal) x0 x1 x2 x3 x4 x5 x6 x8 x9 (ix2 n (0 : Fin 1)) = rowMean (H2 x0 x1 x2 x3 x4 x5 x6 x8 x9 n) := by
  rw [val_main_v45_apply, val_main_v43_apply, val_main_v44_apply, val_main_cst_8_apply]
  have e : idx_main_v43 (ix2 n (0 : Fin 1)) = ix1 n := by idx1
  rw [e, v42_at]
  rfl

/-- The row mean, spread along the row. -/
private theorem v46_at (n : Fin 400000) (j : Fin 160) : val_main_v46 (F := Ideal) x0 x1 x2 x3 x4 x5 x6 x8 x9 (ix2 n j) = rowMean (H2 x0 x1 x2 x3 x4 x5 x6 x8 x9 n) := by
  rw [val_main_v46_apply]
  have e : idx_main_v46 (ix2 n j) = ix2 n (0 : Fin 1) := by idx2
  rw [e, v45_at]

/-- The deviation from the mean. -/
private theorem v47_at (n : Fin 400000) (j : Fin 160) :
    val_main_v47 (F := Ideal) x0 x1 x2 x3 x4 x5 x6 x8 x9 (ix2 n j) = H2 x0 x1 x2 x3 x4 x5 x6 x8 x9 n j - rowMean (H2 x0 x1 x2 x3 x4 x5 x6 x8 x9 n) := by
  rw [val_main_v47_apply, v41_at, v46_at]
  rfl

/-- The squared deviation. -/
private theorem v48_at (n : Fin 400000) (j : Fin 160) :
    val_main_v48 (F := Ideal) x0 x1 x2 x3 x4 x5 x6 x8 x9 (ix2 n j)
      = (H2 x0 x1 x2 x3 x4 x5 x6 x8 x9 n j - rowMean (H2 x0 x1 x2 x3 x4 x5 x6 x8 x9 n)) * (H2 x0 x1 x2 x3 x4 x5 x6 x8 x9 n j - rowMean (H2 x0 x1 x2 x3 x4 x5 x6 x8 x9 n)) := by
  rw [val_main_v48_apply, v47_at]
  rfl

/-- The row sum of the squared deviations. -/
private theorem v49_at (n : Fin 400000) :
    val_main_v49 (F := Ideal) x0 x1 x2 x3 x4 x5 x6 x8 x9 (ix1 n)
      = ∑ k, (H2 x0 x1 x2 x3 x4 x5 x6 x8 x9 n k - rowMean (H2 x0 x1 x2 x3 x4 x5 x6 x8 x9 n)) * (H2 x0 x1 x2 x3 x4 x5 x6 x8 x9 n k - rowMean (H2 x0 x1 x2 x3 x4 x5 x6 x8 x9 n)) := by
  rw [val_main_v49_apply, val_main_cst_9_apply]
  refine (congrArg₂ (· + ·) Ideal.ofBits_zero_f32 (Finset.sum_congr rfl fun k _ => ?_)).trans (zero_add _)
  have e : idx_main_v49 (ix1 n) k = ix2 n k := by idx2
  rw [e, v48_at]

/-- The row variance, as a column. -/
private theorem v52_at (n : Fin 400000) : val_main_v52 (F := Ideal) x0 x1 x2 x3 x4 x5 x6 x8 x9 (ix2 n (0 : Fin 1)) = rowVar (H2 x0 x1 x2 x3 x4 x5 x6 x8 x9 n) := by
  rw [val_main_v52_apply, val_main_v50_apply, val_main_v51_apply, val_main_cst_10_apply]
  have e : idx_main_v50 (ix2 n (0 : Fin 1)) = ix1 n := by idx1
  rw [e, v49_at]
  rfl

/-- The row mean spread along the row, a second time. -/
private theorem v53_at (n : Fin 400000) (j : Fin 160) : val_main_v53 (F := Ideal) x0 x1 x2 x3 x4 x5 x6 x8 x9 (ix2 n j) = rowMean (H2 x0 x1 x2 x3 x4 x5 x6 x8 x9 n) := by
  rw [val_main_v53_apply]
  have e : idx_main_v53 (ix2 n j) = ix2 n (0 : Fin 1) := by idx2
  rw [e, v45_at]

/-- The deviation from the mean, a second time. -/
private theorem v54_at (n : Fin 400000) (j : Fin 160) :
    val_main_v54 (F := Ideal) x0 x1 x2 x3 x4 x5 x6 x8 x9 (ix2 n j) = H2 x0 x1 x2 x3 x4 x5 x6 x8 x9 n j - rowMean (H2 x0 x1 x2 x3 x4 x5 x6 x8 x9 n) := by
  rw [val_main_v54_apply, v41_at, v53_at]
  rfl

/-- The reciprocal square root of the offset variance, as a column. -/
private theorem v57_at (n : Fin 400000) :
    val_main_v57 (F := Ideal) x0 x1 x2 x3 x4 x5 x6 x8 x9 (ix2 n (0 : Fin 1)) = Ideal.rsqrt (rowVar (H2 x0 x1 x2 x3 x4 x5 x6 x8 x9 n) + cEps) := by
  rw [val_main_v57_apply, val_main_v56_apply, v52_at, val_main_v55_apply, val_main_cst_11_apply]
  rfl

/-- The same, spread along the row. -/
private theorem v58_at (n : Fin 400000) (j : Fin 160) :
    val_main_v58 (F := Ideal) x0 x1 x2 x3 x4 x5 x6 x8 x9 (ix2 n j) = Ideal.rsqrt (rowVar (H2 x0 x1 x2 x3 x4 x5 x6 x8 x9 n) + cEps) := by
  rw [val_main_v58_apply]
  have e : idx_main_v58 (ix2 n j) = ix2 n (0 : Fin 1) := by idx2
  rw [e, v57_at]

/-- The normalised deviation. -/
private theorem v59_at (n : Fin 400000) (j : Fin 160) : val_main_v59 (F := Ideal) x0 x1 x2 x3 x4 x5 x6 x8 x9 (ix2 n j) = rowCore (H2 x0 x1 x2 x3 x4 x5 x6 x8 x9 n) j := by
  rw [val_main_v59_apply, v54_at, v58_at]
  rfl

/-- The per-channel scale, spread over the rows. -/
private theorem v61_at (n : Fin 400000) (j : Fin 160) : val_main_v61 (F := Ideal) x10 (ix2 n j) = x10 (ix1 j) := by
  rw [val_main_v61_apply, val_main_v60_apply]
  exact congrArg x10 (by idx1)

/-- The per-channel shift, spread over the rows. -/
private theorem v64_at (n : Fin 400000) (j : Fin 160) : val_main_v64 (F := Ideal) x11 (ix2 n j) = x11 (ix1 j) := by
  rw [val_main_v64_apply, val_main_v63_apply]
  exact congrArg x11 (by idx1)

/-- The normalised row. -/
private theorem v65_at (n : Fin 400000) (j : Fin 160) :
    val_main_v65 (F := Ideal) x0 x1 x2 x3 x4 x5 x6 x8 x9 x10 x11 (ix2 n j)
      = rowNorm (H2 x0 x1 x2 x3 x4 x5 x6 x8 x9 n) (fun j => x10 (ix1 j)) (fun j => x11 (ix1 j)) j := by
  rw [val_main_v65_apply, val_main_v62_apply, v59_at, v61_at, v64_at]
  rfl

/-! ### The skip branch, the last activation and the head -/

/-- The skip branch's linear map. -/
private theorem v66_at (n : Fin 400000) (j : Fin 160) :
    val_main_v66 (F := Ideal) x0 x1 x2 x3 x4 x7 (ix2 n j) = lin (X x0 x1 x2 x3 x4 n) (fun j k => x7 (ix2 j k)) j := by
  rw [val_main_v66_apply]
  unfold lin
  refine Finset.sum_congr rfl fun k _ => ?_
  have e1 : lidx_main_v66 (ix2 n j) k = ix2 n k := by idx2
  have e2 : ridx_main_v66 (ix2 n j) k = ix2 j k := by idx2
  rw [e1, e2, v14_at]

/-- The last activation on row `n`. -/
private def R (n : Fin 400000) : Fin 160 → EReal :=
  fun k => max (rowNorm (H2 x0 x1 x2 x3 x4 x5 x6 x8 x9 n) (fun j => x10 (ix1 j)) (fun j => x11 (ix1 j)) k
    + lin (X x0 x1 x2 x3 x4 n) (fun j k => x7 (ix2 j k)) k) 0

/-- The last activation. -/
private theorem v68_at (n : Fin 400000) (j : Fin 160) : val_main_v68 (F := Ideal) x0 x1 x2 x3 x4 x5 x6 x7 x8 x9 x10 x11 (ix2 n j) = R x0 x1 x2 x3 x4 x5 x6 x7 x8 x9 x10 x11 n j := by
  rw [val_main_v68_apply, val_main_v67_apply, v65_at, v66_at, val_main_call1_v0_apply, val_main_call1_cst_apply]
  show max _ (Ideal.ofBits .f32 0x00000000#32) = _
  rw [Ideal.ofBits_zero_f32]
  rfl

/-- The head's product with the one row of head weights. -/
private theorem v69_at (n : Fin 400000) :
    val_main_v69 (F := Ideal) x0 x1 x2 x3 x4 x5 x6 x7 x8 x9 x10 x11 x12 (ix2 n (0 : Fin 1)) = ∑ k, R x0 x1 x2 x3 x4 x5 x6 x7 x8 x9 x10 x11 n k * x12 (ix2 (0 : Fin 1) k) := by
  rw [val_main_v69_apply]
  refine Finset.sum_congr rfl fun k _ => ?_
  have e1 : lidx_main_v69 (ix2 n (0 : Fin 1)) k = ix2 n k := by idx2
  have e2 : ridx_main_v69 (ix2 n (0 : Fin 1)) k = ix2 (0 : Fin 1) k := by idx2
  rw [e1, e2, v68_at]

/-- The head's bias, spread over the rows. -/
private theorem v71_at (n : Fin 400000) : val_main_v71 (F := Ideal) x13 (ix2 n (0 : Fin 1)) = x13 (ix1 (0 : Fin 1)) := by
  rw [val_main_v71_apply, val_main_v70_apply]
  exact congrArg x13 (by idx1)

/-- The result at row `n`. -/
private theorem v72_at (n : Fin 400000) :
    val_main_v72 (F := Ideal) x0 x1 x2 x3 x4 x5 x6 x7 x8 x9 x10 x11 x12 x13 (ix2 n (0 : Fin 1))
      = (∑ k, R x0 x1 x2 x3 x4 x5 x6 x7 x8 x9 x10 x11 n k * x12 (ix2 (0 : Fin 1) k)) + x13 (ix1 (0 : Fin 1)) := by
  rw [val_main_v72_apply, v69_at, v71_at]
  rfl

end Stages

/-- The reference's result is `G` of its arguments, with the two gathers left as they are printed. -/
theorem ref_eq (x0 : (⟨S40000x128, .f32⟩ : BufTy).Contents (Elt Ideal)) (x1 : (⟨S400000x128, .f32⟩ : BufTy).Contents (Elt Ideal))
    (x2 : (⟨S40000x32, .f32⟩ : BufTy).Contents (Elt Ideal)) (x3 : (⟨S400000x32, .f32⟩ : BufTy).Contents (Elt Ideal))
    (x4 : (⟨S400000, .i32⟩ : BufTy).Contents (Elt Ideal)) (x5 : (⟨S160x320, .f32⟩ : BufTy).Contents (Elt Ideal))
    (x6 : (⟨S160x160, .f32⟩ : BufTy).Contents (Elt Ideal)) (x7 : (⟨S160x320, .f32⟩ : BufTy).Contents (Elt Ideal))
    (x8 x9 x10 x11 : (⟨S160, .f32⟩ : BufTy).Contents (Elt Ideal)) (x12 : (⟨S1x160, .f32⟩ : BufTy).Contents (Elt Ideal))
    (x13 : (⟨S1, .f32⟩ : BufTy).Contents (Elt Ideal)) :
    val_main_v72 (F := Ideal) x0 x1 x2 x3 x4 x5 x6 x7 x8 x9 x10 x11 x12 x13
      = G x1 x3 (val_main_v6 (F := Ideal) x0 x4) (val_main_v13 (F := Ideal) x2 x4) x5 x6 x7 x8 x9 x10 x11 x12 x13 := by
  funext i
  obtain ⟨n, u, rfl⟩ : ∃ (n : Fin 400000) (u : Fin 1), i = ix2 n u := ⟨i 0, i 1, eq_ix2 i⟩
  obtain rfl : u = 0 := Subsingleton.elim _ _
  rw [v72_at]
  rfl

end Cert.ReferenceIdeal.RefValue

end
-- ==== Proof.lean ====
/-
  The kernel and its jnp reference compute one function on the extended reals.

  The kernel fuses, per tile of 4000 rows, a residual MLP with two one-group normalisations and a linear head:
  for each row, with `x` the 320 joined features `[paths | Z_pat | actors[u] | Z_act[u]]`,
    out = relu (GN₂ (relu (GN₁ (x·w1ᵀ)) · w2ᵀ) + x·wtᵀ) · whᵀ + bh .
  It contracts `x·w1ᵀ` and `x·wtᵀ` as four partial products over the four feature stretches, takes the head as a
  lane sum, and reads the weights transposed on the host; the reference joins the features and contracts once.
  On the extended reals the partial products add up to the whole contraction (a finite sum splits at any point,
  with no finiteness needed), so both programs end at `HeadSpec.G` of the arguments (Spec.lean):
  the kernel block by block (KLayer1, KPayload, KBlocks), the reference operation by operation (RefValue).
  The two gathers are the same host operation on both sides and are never opened.
-/
import proofs.«128025_j45535243272619_2_alg».proof.Defs
import proofs.«128025_j45535243272619_2_alg».proof.Proof.Gen.Kernel
import proofs.«128025_j45535243272619_2_alg».proof.Proof.Gen.Kernel.Skeleton
import proofs.«128025_j45535243272619_2_alg».proof.Proof.Gen.Kernel.Launch
import proofs.«128025_j45535243272619_2_alg».proof.Proof.Gen.Kernel.Points
import proofs.«128025_j45535243272619_2_alg».proof.Proof.Gen.Kernel.Frame
import proofs.«128025_j45535243272619_2_alg».proof.Proof.Gen.KernelIdeal
import proofs.«128025_j45535243272619_2_alg».proof.Proof.Gen.KernelIdeal.Skeleton
import proofs.«128025_j45535243272619_2_alg».proof.Proof.Gen.KernelIdeal.Launch
import proofs.«128025_j45535243272619_2_alg».proof.Proof.Gen.KernelIdeal.Points
import proofs.«128025_j45535243272619_2_alg».proof.Proof.Gen.KernelIdeal.Frame
import proofs.«128025_j45535243272619_2_alg».proof.Proof.Gen.ReferenceIdeal
import proofs.«128025_j45535243272619_2_alg».proof.Proof.Gen.Pre_finite_inputs
import proofs.«128025_j45535243272619_2_alg».proof.Proof.Gen.KernelIdeal.Value
import proofs.«128025_j45535243272619_2_alg».proof.Proof.Gen.ReferenceIdeal.Run
import proofs.«128025_j45535243272619_2_alg».proof.Proof.Gen.ReferenceIdeal.Read
import proofs.«128025_j45535243272619_2_alg».proof.Proof.Spec
import proofs.«128025_j45535243272619_2_alg».proof.Proof.KBlocks
import proofs.«128025_j45535243272619_2_alg».proof.Proof.RefValue
import Idealize.ShloMosaic.Adequacy
import Idealize.ShloMosaic.Init

noncomputable section

namespace Cert.Proof

open Idealize.ShloMosaic Idealize.ShloMosaic.TcCoe Idealize.SL.Sem

/-- The reference's gather of `actors` rows is the kernel's: one host operation on the same table (a change of
    float format is the identity on the extended reals) at the same wrapped row numbers. -/
theorem gatherA_eq (x0 : (⟨Cert.ReferenceIdeal.S40000x128, .f32⟩ : BufTy).Contents (Elt Ideal))
    (x4 : (⟨Cert.ReferenceIdeal.S400000, .i32⟩ : BufTy).Contents (Elt Ideal)) :
    Cert.ReferenceIdeal.Read.val_main_v6 (F := Ideal) x0 x4 = Cert.KernelIdeal.Blocks.gatherA x0 x4 := rfl

/-- Likewise the gather of `Z_act` rows. -/
theorem gatherZ_eq (x2 : (⟨Cert.ReferenceIdeal.S40000x32, .f32⟩ : BufTy).Contents (Elt Ideal))
    (x4 : (⟨Cert.ReferenceIdeal.S400000, .i32⟩ : BufTy).Contents (Elt Ideal)) :
    Cert.ReferenceIdeal.Read.val_main_v13 (F := Ideal) x2 x4 = Cert.KernelIdeal.Blocks.gatherZ x2 x4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `HeadSpec.G` of the arguments, which agree. -/
theorem algebraic : Cert.algebraic_KernelIdeal_ReferenceIdeal := by
  intro m ρ m' ρ' _ hagree
  refine ⟨fun c => Cert.KernelIdeal.Blocks.Gk m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v72_eq, Cert.ReferenceIdeal.RefValue.ref_eq, gatherA_eq, gatherZ_eq,
    a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
